-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg5 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S4x128x128 .f32) (main_arg3 : FVec F S4x128 .f32) (main_arg4 : FVec F S4x128x128 .f32) (main_arg5 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩

abbrev nBuf : Space → Nat
  | .hbm => 106
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S1x128x128, .f32⟩
  | .hbm, ⟨30, _⟩ => ⟨S128x128, .f32⟩
  | .hbm, ⟨31, _⟩ => ⟨S1x128x128, .f32⟩
  | .hbm, ⟨32, _⟩ => ⟨S128x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S1x128x128, .f32⟩
  | .hbm, ⟨54, _⟩ => ⟨S128x128, .f32⟩
  | .hbm, ⟨55, _⟩ => ⟨S1x128x128, .f32⟩
  | .hbm, ⟨56, _⟩ => ⟨S128x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S1x128x128, .f32⟩
  | .hbm, ⟨78, _⟩ => ⟨S128x128, .f32⟩
  | .hbm, ⟨79, _⟩ => ⟨S1x128x128, .f32⟩
  | .hbm, ⟨80, _⟩ => ⟨S128x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S1x128, .f32⟩
  | .hbm, ⟨99, _⟩ => ⟨S128, .f32⟩
  | .hbm, ⟨100, _⟩ => ⟨S1x128, .f32⟩
  | .hbm, ⟨101, _⟩ => ⟨S1x128x128, .f32⟩
  | .hbm, ⟨102, _⟩ => ⟨S128x128, .f32⟩
  | .hbm, ⟨103, _⟩ => ⟨S1x128x128, .f32⟩
  | .hbm, ⟨104, _⟩ => ⟨S128x128, .f32⟩
  | .hbm, ⟨105, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c_7 : Ref sig .tc := ⟨.hbm, 82, rfl⟩
abbrev main_v67 : Ref sig .tc := ⟨.hbm, 83, rfl⟩
abbrev main_v68 : Ref sig .tc := ⟨.hbm, 84, rfl⟩
abbrev main_c_8 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128_S1x128_1_0 : S4x128.Slices ![1, 0] S1x128
  slices_S4x128x128_S1x128x128_1_0_0 : S4x128x128.Slices ![1, 0, 0] S1x128x128
  slices_S4x128_S1x128_2_0 : S4x128.Slices ![2, 0] S1x128
  slices_S4x128x128_S1x128x128_2_0_0 : S4x128x128.Slices ![2, 0, 0] S1x128x128
  slices_S4x128_S1x128_3_0 : S4x128.Slices ![3, 0] S1x128
  slices_S4x128x128_S1x128x128_3_0_0 : S4x128x128.Slices ![3, 0, 0] S1x128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S4x128, .f32⟩
  | 6 => ⟨S1x1600000, .i32⟩
  | 7 => ⟨S1600000, .i32⟩
  | 8 => ⟨S1x1600000, .i32⟩
  | 9 => ⟨S1600000, .i32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S_, .f32⟩
  | 24 => ⟨S100000x128, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S1x128x128, .f32⟩
  | 68 => ⟨S128x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S1x128x128, .f32⟩
  | 31 => ⟨S128x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_cst : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_c_2 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_call2_cst : Ref sig .tc := ⟨.hbm, 75, rfl⟩
abbrev main_call2_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call3_cst : Ref sig .tc := ⟨.hbm, 86, rfl⟩
abbrev main_call3_v0 : Ref sig .tc := ⟨.hbm, 87, rfl⟩
abbrev main_v66 : Ref sig .tc := ⟨.hbm, 88, rfl⟩
abbrev main_v67 : Ref sig .tc := ⟨.hbm, 89, rfl⟩
abbrev main_c_6 : Ref sig .tc := ⟨.hbm, 90, rfl⟩
abbrev main_v68 : Ref sig .tc := ⟨.hbm, 91, rfl⟩
abbrev main_v69 : Ref sig .tc := ⟨.hbm, 92, rfl⟩
abbrev main_c_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call4_cst : Ref sig .tc := ⟨.hbm, 115, rfl⟩
abbrev main_call4_v0 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_call5_cst : Ref sig .tc := ⟨.hbm, 126, rfl⟩
abbrev main_call5_v0 : Ref sig .tc := ⟨.hbm, 127, rfl⟩
abbrev main_v98 : Ref sig .tc := ⟨.hbm, 128, rfl⟩
abbrev main_v99 : Ref sig .tc := ⟨.hbm, 129, rfl⟩
abbrev main_c_10 : Ref sig .tc := ⟨.hbm, 130, rfl⟩
abbrev main_v100 : Ref sig .tc := ⟨.hbm, 131, rfl⟩
abbrev main_v101 : Ref sig .tc := ⟨.hbm, 132, rfl⟩
abbrev main_c_11 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_12 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_13 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_call6_cst : Ref sig .tc := ⟨.hbm, 155, rfl⟩
abbrev main_call6_v0 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_call7_cst : Ref sig .tc := ⟨.hbm, 166, rfl⟩
abbrev main_call7_v0 : Ref sig .tc := ⟨.hbm, 167, rfl⟩
abbrev main_v130 : Ref sig .tc := ⟨.hbm, 168, rfl⟩
abbrev main_v131 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GinSpec.lean ====
/-
  One GIN layer and the four-layer network, as functions of the argument arrays over the extended reals.

  A layer takes the node features x : [100000, 128], the aggregated neighbour features agg : [100000, 128]
  (the sum over incoming edges of the source rows), two weight matrices w1, w2 : [128, 128] and two bias rows
  b1, b2 : [128], and returns, at row r and column q,

      x[r, q] + max( (sum_k  max( (sum_j (agg[r, j] + 1 * x[r, j]) * w1[j, k]) + b1[k], 0 ) * w2[k, q]) + b2[q], 0 ).

  Row r of the result depends on row r of x and of agg only: a block of rows of the result is the same function of the
  same block of rows of x and agg. The one and the zero are kept as the f32 words the programs write, never evaluated.

  The network applies the layer four times; the aggregation A is a parameter (the same host gather / scatter-add chain in
  both programs, which this file never opens).
-/
import Idealize.ShloMosaic.PureOps.Ideal
import Idealize.ShloMosaic.Lib.ValueIdx

noncomputable section

namespace Cert.GinSpec

open Idealize.ShloMosaic Idealize.ShloMosaic.ValueIdx

/-- The node-feature shape [100000, 128]. -/
abbrev SX : Shape := ⟨2, ![100000, 128]⟩
/-- A weight matrix's shape [128, 128]. -/
abbrev SW : Shape := ⟨2, ![128, 128]⟩

/-- The f32 word of 1.0 read at the extended reals. -/
abbrev one : EReal := Ideal.ofBits .f32 0x3F800000#32
/-- The f32 word of 0.0 read at the extended reals. -/
abbrev zero : EReal := Ideal.ofBits .f32 0x00000000#32

/-- The hidden unit k of row r: relu of (agg + 1 * x)[r, :] . w1[:, k] + b1[k]. It reads x and agg only through
    their rows r, given as functions of the column. -/
def hidden (xr aggr : Fin 128 → EReal) (w1 : SW.Idx → EReal) (b1 : Fin 128 → EReal) (k : Fin 128) : EReal :=
  max ((∑ j : Fin 128, (aggr j + one * xr j) * w1 (ix2 j k)) + b1 k) zero

/-- One row of a layer's result at column q, from that row of x and of agg. -/
def rowOut (xr aggr : Fin 128 → EReal) (w1 : SW.Idx → EReal) (b1 : Fin 128 → EReal) (w2 : SW.Idx → EReal)
    (b2 : Fin 128 → EReal) (q : Fin 128) : EReal :=
  xr q + max ((∑ k : Fin 128, hidden xr aggr w1 b1 k * w2 (ix2 k q)) + b2 q) zero

/-- A layer's result at row r, column q. -/
def layerAt (x agg : SX.Idx → EReal) (w1 : SW.Idx → EReal) (b1 : Fin 128 → EReal) (w2 : SW.Idx → EReal)
    (b2 : Fin 128 → EReal) (r : Fin 100000) (q : Fin 128) : EReal :=
  rowOut (fun j => x (ix2 r j)) (fun j => agg (ix2 r j)) w1 b1 w2 b2 q

/-- A layer's result as an array. -/
def layer (x agg : SX.Idx → EReal) (w1 : SW.Idx → EReal) (b1 : Fin 128 → EReal) (w2 : SW.Idx → EReal)
    (b2 : Fin 128 → EReal) : SX.Idx → EReal :=
  fun i => layerAt x agg w1 b1 w2 b2 (i 0) (i 1)

theorem layer_ix2 (x agg : SX.Idx → EReal) (w1 : SW.Idx → EReal) (b1 : Fin 128 → EReal) (w2 : SW.Idx → EReal)
    (b2 : Fin 128 → EReal) (r : Fin 100000) (q : Fin 128) :
    layer x agg w1 b1 w2 b2 (ix2 r q) = layerAt x agg w1 b1 w2 b2 r q := rfl

/-- One step of the network: layer l applied to x, with the aggregation A of x. -/
def step (A : (SX.Idx → EReal) → (SX.Idx → EReal)) (w1 : Fin 4 → SW.Idx → EReal) (b1 : Fin 4 → Fin 128 → EReal)
    (w2 : Fin 4 → SW.Idx → EReal) (b2 : Fin 4 → Fin 128 → EReal) (l : Fin 4) (x : SX.Idx → EReal) : SX.Idx → EReal :=
  layer x (A x) (w1 l) (b1 l) (w2 l) (b2 l)

/-- The four layers, in order. -/
def net (A : (SX.Idx → EReal) → (SX.Idx → EReal)) (w1 : Fin 4 → SW.Idx → EReal) (b1 : Fin 4 → Fin 128 → EReal)
    (w2 : Fin 4 → SW.Idx → EReal) (b2 : Fin 4 → Fin 128 → EReal) (x : SX.Idx → EReal) : SX.Idx → EReal :=
  step A w1 b1 w2 b2 3 (step A w1 b1 w2 b2 2 (step A w1 b1 w2 b2 1 (step A w1 b1 w2 b2 0 x)))

end Cert.GinSpec

end
-- ==== Proof.KernelRun.lean ====
/-
  The idealized kernel program's run, with the result buffer named.

  The program is eight segments: a stretch of host operations, then a region, four times over. The buffer contents at each
  boundary are a fold from the launch memory: a stretch applies its operations, a region replaces its windows' arrays by
  what its write-backs leave. Every weakly fair execution terminates without a fault in a state that holds every unscoped
  buffer at the last boundary's contents; so the result buffer ends at the last fold's value there, and each argument
  array, which nothing writes, ends as launched.
-/
import proofs.«123225_j53609781789214_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the six argument arrays as launched. -/
theorem run_result : θ_run defs (onTc (τ := τ) (main (F := F))) ⟨m, fun _ => 0, ρ⟩ (fun r => ∀ c : Dev nD,
      r.2.mem ((c.tc : Thread nD τ).loc main_v87) = W8 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v87 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.PayAt.lean ====
/-
  The body of one layer's region, read at an index of its block at the extended reals.

  The region's body loads a block of 5000 rows of x and of agg, the two weight matrices and the two bias rows, and stores
  x + relu(relu((agg + 1 * x) . w1 + b1) . w2 + b2). Its two matrix products into a zero accumulator are sums over the
  contracted column; the changes of float format are identities; a bias row [1, 128] broadcast over the rows is read at its
  column. So row p, column q of what the body stores is the layer's row function of row p of the two loaded blocks.
-/
import proofs.«123225_j53609781789214_1_alg».proof.Proof.Gen.KernelIdeal.Skeleton
import proofs.«123225_j53609781789214_1_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Idealize.ShloMosaic Idealize.ShloMosaic.ValueIdx Cert.KernelIdeal Cert.KernelIdeal.Gen

/-- The left operand's index of the block-times-matrix product, first coordinate: the output's row (axis 0 of the left
    operand is neither a batch axis nor the contracted one). -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's index, second coordinate: the contraction index (axis 1 is the one contracted axis). -/
theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's index, first coordinate: the contraction index (axis 0 is the one contracted axis). -/
theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's index, second coordinate: the output's column (axis 1 of the right operand is neither a batch
    axis nor the contracted one). -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a [5000, 128] block with a [128, 128] matrix into a zero accumulator, read at row p and column q: the
    sum over the contracted column k of the block's entry (p, k) times the matrix's entry (k, q). The dot's contraction
    index has one axis of extent 128; the sum is re-indexed along the bijection of that axis with Fin 128. -/
theorem matmul_zero_at {φ₁ φ₂ : FTy} (l : FVec Ideal S5000x128 φ₁) (r : FVec Ideal S128x128 φ₂) (p : Fin 5000) (q : Fin 128) :
    matmul (F := Ideal) dot_S5000x128_S128x128_S5000x128_1_0_0_1_n_n none l r
        (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- One dense stage of the body read at row p, column q: the block a times the matrix w into a zero accumulator, plus the
    bias row b broadcast over the rows, clamped below by the zero word, is max((sum_k a[p, k] * w[k, q]) + b[0, q], 0).
    The changes of float format and the shape casts between equal shapes are identities; the broadcast row is read at its
    column. -/
theorem dense_at (a : FVec Ideal S5000x128 .f32) (w : Vec Ideal S128x128 .f32) (b : Vec Ideal S1x128 .f32)
    (hw : S128x128.ShapeCasts S128x128) (hb : S1x128.ShapeCasts S1x128) (hbb : S1x128.Broadcasts S5000x128)
    (ht : FTy.bf16.bits < FTy.f32.bits) (p : Fin 5000) (q : Fin 128) :
    maximumf
        (addf
          (matmul (F := Ideal) dot_S5000x128_S128x128_S5000x128_1_0_0_1_n_n none (truncf .bf16 a ht)
            (truncf .bf16 (shapeCast S128x128 w hw) ht) (constant (F := Ideal) S5000x128 .f32 0x00000000#32))
          (broadcastTo S5000x128 (shapeCast S1x128 b hb) hbb))
        (broadcast S5000x128 (Scalar.ofBits (F := Ideal) .f32 0x00000000#32)) (ix2 p q)
      = max ((∑ k : Fin 128, a (ix2 p k) * w (ix2 k q)) + b (ix2 0 q)) (Ideal.ofBits .f32 0x00000000#32) := by
  rw [shapeCast_self w hw, shapeCast_self b hb]
  refine congrArg₂ max (congrArg₂ (· + ·) ?_ ?_) rfl
  · exact matmul_zero_at (truncf .bf16 a ht) (truncf .bf16 w ht) p q
  · exact broadcastTo_1b_ab_apply b hbb p q

/-- Region 0's stored value at row p, column q of the block. -/
theorem pay0_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = Cert.GinSpec.rowOut (fun j => x0 (ix2 p j)) (fun j => x1 (ix2 p j)) x2 (fun k => x3 (ix2 0 k)) x4
          (fun k => x5 (ix2 0 k)) q := by
  unfold k0_pay1
  refine (congrArg (x0 (ix2 p q) + ·) (dense_at _ x4 x5 _ _ _ _ p q)).trans ?_
  unfold Cert.GinSpec.rowOut
  refine congrArg (fun t => x0 (ix2 p q) + max (t + x5 (ix2 0 q)) Cert.GinSpec.zero) ?_
  refine Finset.sum_congr rfl fun k _ => ?_
  refine congrArg (· * x4 (ix2 k q)) ?_
  refine (dense_at _ x2 x3 _ _ _ _ p k).trans ?_
  unfold Cert.GinSpec.hidden
  rw [shapeCast_self x1 shapeCasts_S5000x128_S5000x128]
  rfl

/-- Region 1's stored value at row p, column q of the block. -/
theorem pay1_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = Cert.GinSpec.rowOut (fun j => x0 (ix2 p j)) (fun j => x1 (ix2 p j)) x2 (fun k => x3 (ix2 0 k)) x4
          (fun k => x5 (ix2 0 k)) q := by
  unfold k1_pay1
  rw [shapeCast_self x0 shapeCasts_S5000x128_S5000x128]
  refine (congrArg (x0 (ix2 p q) + ·) (dense_at _ x4 x5 _ _ _ _ p q)).trans ?_
  unfold Cert.GinSpec.rowOut
  refine congrArg (fun t => x0 (ix2 p q) + max (t + x5 (ix2 0 q)) Cert.GinSpec.zero) ?_
  refine Finset.sum_congr rfl fun k _ => ?_
  refine congrArg (· * x4 (ix2 k q)) ?_
  refine (dense_at _ x2 x3 _ _ _ _ p k).trans ?_
  unfold Cert.GinSpec.hidden
  rw [shapeCast_self x1 shapeCasts_S5000x128_S5000x128]
  rfl

/-- Region 2's stored value at row p, column q of the block. -/
theorem pay2_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 (F := Ideal) x0 x1 x2 x3 x4 x5 (ix2 p q)
      = Cert.GinSpec.rowOut (fun j => x0 (ix2 p j)) (fun j => x1 (ix2 p j)) x2 (fun k => x3 (ix2 0 k)) x4
          (fun k => x5 (ix2 0 k)) q := by
  unfold k2_pay1
  rw [shapeCast_self x0 shapeCasts_S5000x128_S5000x128]
  refine (congrArg (x0 (ix2 p q) + ·) (dense_at _ x4 x5 _ _ _ _ p q)).trans ?_
  unfold Cert.GinSpec.rowOut
  refine congrArg (fun t => x0 (ix2 p q) + max (t + x5 (ix2 0 q)) Cert.GinSpec.zero) ?_
  refine Finset.sum_congr rfl fun k _ => ?_
  refine congrArg (· * x4 (ix2 k q)) ?_
  refine (dense_at _ x2 x3 _ _ _ _ p k).trans ?_
  unfold Cert.GinSpec.hidden
  rw [shapeCast_self x1 shapeCasts_S5000x128_S5000x128]
  rfl

/-- Region 3's stored value at row p, column q of the block. -/
theorem pay3_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 (F := Ideal) x0 x1 x2 x3 x4 x5 (ix2 p q)
      = Cert.GinSpec.rowOut (fun j => x0 (ix2 p j)) (fun j => x1 (ix2 p j)) x2 (fun k => x3 (ix2 0 k)) x4
          (fun k => x5 (ix2 0 k)) q := by
  unfold k3_pay1
  rw [shapeCast_self x0 shapeCasts_S5000x128_S5000x128]
  refine (congrArg (x0 (ix2 p q) + ·) (dense_at _ x4 x5 _ _ _ _ p q)).trans ?_
  unfold Cert.GinSpec.rowOut
  refine congrArg (fun t => x0 (ix2 p q) + max (t + x5 (ix2 0 q)) Cert.GinSpec.zero) ?_
  refine Finset.sum_congr rfl fun k _ => ?_
  refine congrArg (· * x4 (ix2 k q)) ?_
  refine (dense_at _ x2 x3 _ _ _ _ p k).trans ?_
  unfold Cert.GinSpec.hidden
  rw [shapeCast_self x1 shapeCasts_S5000x128_S5000x128]
  rfl

end Cert.KernelIdeal.PayAt

end
-- ==== Proof.Region0.lean ====
/-
  Region 0 (layer 0): the array its output window leaves, as the layer function of the arrays the region finds.

  The grid has 20 points; point t reads rows 5000 t .. 5000 t + 4999 of x and of agg (windows 0 and 1) and the whole of the
  two weight matrices and the two bias rows (windows 2 to 5, the same block at every point), and writes rows
  5000 t .. 5000 t + 4999 of the output (window 6). Since a row of a layer's result depends only on that row of x and agg,
  what point t writes back is block t of ONE whole-array function, the layer; the 20 blocks cover the 100000 rows
  (row r lies in block r / 5000), so the array ends holding the layer of the entry arrays.
-/
import proofs.«123225_j53609781789214_1_alg».proof.Proof.Gen.KernelIdeal.Frame
import proofs.«123225_j53609781789214_1_alg».proof.Proof.GinSpec
import proofs.«123225_j53609781789214_1_alg».proof.Proof.PayAt

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

/-- The zero offsets of a rectangle that is the whole buffer, however the zeros are spelt. -/
theorem zeroOffsets0 : (![0, 0] : Fin 2 → Nat) = fun _ => 0 := funext fun a => by fin_cases a <;> rfl

/-- The block indices of region 0's seven windows over its 20 points: the row blocks of x, agg and the output move
    with the point (block (t, 0)); the weights and bias rows stay at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b)) (c : Dev nD)

/-- Row z0, column z1 of x's block at point t is row 5000 t + z0, column z1 of x. -/
theorem readX0 (t : Fin cfg0.N) (z : S5000x128.Idx) (i : S100000x128.Idx)
    (h0 : (i 0).val = t.val * 5000 + (z 0).val) (h1 : (i 1).val = (z 1).val) :
    iblk0 (F := Ideal) V c 0 t z = V c main_arg0 i := by
  show V c main_arg0 (((cfg0.win 0).blk t).view.emb z) = V c main_arg0 i
  obtain ⟨e00, e01, -⟩ := blockIndex0 t
  refine congrArg (V c main_arg0) (funext fun a => Fin.ext ?_)
  match a with
  | ⟨0, _⟩ => show win0_0.index t (0 : Fin 2) * 5000 + 1 * (z 0).val = (i 0).val; omega
  | ⟨1, _⟩ => show win0_0.index t (1 : Fin 2) * 128 + 1 * (z 1).val = (i 1).val; omega

/-- Row z0, column z1 of agg's block at point t is row 5000 t + z0, column z1 of agg. -/
theorem readAgg0 (t : Fin cfg0.N) (z : S5000x128.Idx) (i : S100000x128.Idx)
    (h0 : (i 0).val = t.val * 5000 + (z 0).val) (h1 : (i 1).val = (z 1).val) :
    iblk0 (F := Ideal) V c 1 t z = V c main_v13 i := by
  show V c main_v13 (((cfg0.win 1).blk t).view.emb z) = V c main_v13 i
  obtain ⟨-, -, e10, e11, -⟩ := blockIndex0 t
  refine congrArg (V c main_v13) (funext fun a => Fin.ext ?_)
  match a with
  | ⟨0, _⟩ => show win0_1.index t (0 : Fin 2) * 5000 + 1 * (z 0).val = (i 0).val; omega
  | ⟨1, _⟩ => show win0_1.index t (1 : Fin 2) * 128 + 1 * (z 1).val = (i 1).val; omega

/-- The first weight matrix's block at every point is the whole matrix. -/
theorem readW1_0 (t : Fin cfg0.N) (z : S128x128.Idx) : iblk0 (F := Ideal) V c 2 t z = V c main_v21 z := by
  show V c main_v21 (((cfg0.win 2).blk t).view.emb z) = V c main_v21 z
  obtain ⟨-, -, -, -, e20, e21, -⟩ := blockIndex0 t
  refine congrArg (V c main_v21) (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

/-- The first bias row's block at every point is the whole row. -/
theorem readB1_0 (t : Fin cfg0.N) (z : S1x128.Idx) : iblk0 (F := Ideal) V c 3 t z = V c main_v16 z := by
  show V c main_v16 (((cfg0.win 3).blk t).view.emb z) = V c main_v16 z
  obtain ⟨-, -, -, -, -, -, e30, e31, -⟩ := blockIndex0 t
  refine congrArg (V c main_v16) (funext fun a => Fin.ext ?_)
  match a with
  | ⟨0, _⟩ => show win0_3.index t (0 : Fin 2) * 1 + 1 * (z 0).val = (z 0).val; omega
  | ⟨1, _⟩ => show win0_3.index t (1 : Fin 2) * 128 + 1 * (z 1).val = (z 1).val; omega

/-- The second weight matrix's block at every point is the whole matrix. -/
theorem readW2_0 (t : Fin cfg0.N) (z : S128x128.Idx) : iblk0 (F := Ideal) V c 4 t z = V c main_v23 z := by
  show V c main_v23 (((cfg0.win 4).blk t).view.emb z) = V c main_v23 z
  obtain ⟨-, -, -, -, -, -, -, -, e40, e41, -⟩ := blockIndex0 t
  refine congrArg (V c main_v23) (funext fun a => Fin.ext ?_)
  match a with
  | ⟨0, _⟩ => show win0_4.index t (0 : Fin 2) * 128 + 1 * (z 0).val = (z 0).val; omega
  | ⟨1, _⟩ => show win0_4.index t (1 : Fin 2) * 128 + 1 * (z 1).val = (z 1).val; omega

/-- The second bias row's block at every point is the whole row. -/
theorem readB2_0 (t : Fin cfg0.N) (z : S1x128.Idx) : iblk0 (F := Ideal) V c 5 t z = V c main_v19 z := by
  show V c main_v19 (((cfg0.win 5).blk t).view.emb z) = V c main_v19 z
  obtain ⟨-, -, -, -, -, -, -, -, -, -, e50, e51, -⟩ := blockIndex0 t
  refine congrArg (V c main_v19) (funext fun a => Fin.ext ?_)
  match a with
  | ⟨0, _⟩ => show win0_5.index t (0 : Fin 2) * 1 + 1 * (z 0).val = (z 0).val; omega
  | ⟨1, _⟩ => show win0_5.index t (1 : Fin 2) * 128 + 1 * (z 1).val = (z 1).val; omega

/-- What the body leaves in the output buffer, at row y0 and column y1 of the block: the layer's row function of row y0
    of the two loaded row blocks (each load and the one store go through the whole buffer). -/
theorem bodyOut0 (x0 x1 : Vec Ideal S5000x128 .f32) (x2 : Vec Ideal S128x128 .f32) (x3 : Vec Ideal S1x128 .f32)
    (x4 : Vec Ideal S128x128 .f32) (x5 : Vec Ideal S1x128 .f32) (y : S5000x128.Idx) :
    out0_6 (F := Ideal) x0 x1 x2 x3 x4 x5 y
      = Cert.GinSpec.rowOut (fun j => x0 (ix2 (y 0) j)) (fun j => x1 (ix2 (y 0) j)) x2 (fun k => x3 (ix2 0 k)) x4
          (fun k => x5 (ix2 0 k)) (y 1) := by
  unfold out0_6
  rw [View.canon_unit_zero zeroOffsets0]
  simp only [View.ld_unit_zero (S := S5000x128) zeroOffsets0, View.ld_unit_zero (S := S128x128) zeroOffsets0,
    View.ld_unit_zero (S := S1x128) zeroOffsets0]
  obtain ⟨p, q, rfl⟩ : ∃ (p : Fin 5000) (q : Fin 128), y = ix2 p q := ⟨y 0, y 1, eq_ix2 y⟩
  exact PayAt.pay0_at x0 x1 x2 x3 x4 x5 p q

/-- The row function takes equal values at equal arguments. -/
theorem rowOut_congr0 {xr xr' aggr aggr' : Fin 128 → EReal} {w1 w1' : Cert.GinSpec.SW.Idx → EReal} {b1 b1' : Fin 128 → EReal}
    {w2 w2' : Cert.GinSpec.SW.Idx → EReal} {b2 b2' : Fin 128 → EReal} {q q' : Fin 128}
    (hx : xr = xr') (ha : aggr = aggr') (hw1 : w1 = w1') (hb1 : b1 = b1') (hw2 : w2 = w2') (hb2 : b2 = b2') (hq : q = q') :
    Cert.GinSpec.rowOut xr aggr w1 b1 w2 b2 q = Cert.GinSpec.rowOut xr' aggr' w1' b1' w2' b2' q' := by
  subst hx ha hw1 hb1 hw2 hb2 hq; rfl

set_option maxHeartbeats 400000 in
/-- What the body leaves at row y0, column y1 of the output block at point t is the layer of the entry arrays at
    row 5000 t + y0, column y1: the two row blocks are read at that row of x and agg, the weights and bias rows whole. -/
theorem pointOut0 (t : Fin cfg0.N) (y : S5000x128.Idx) (i : S100000x128.Idx)
    (h0 : (i 0).val = t.val * 5000 + (y 0).val) (h1 : i 1 = y 1) :
    out0_6 (F := Ideal) (iblk0 V c 0 t) (iblk0 V c 1 t) (iblk0 V c 2 t) (iblk0 V c 3 t) (iblk0 V c 4 t) (iblk0 V c 5 t) y
      = Cert.GinSpec.layer (V c main_arg0) (V c main_v13) (V c main_v21) (fun k => V c main_v16 (ix2 0 k)) (V c main_v23)
          (fun k => V c main_v19 (ix2 0 k)) i := by
  refine (bodyOut0 (iblk0 V c 0 t) (iblk0 V c 1 t) (iblk0 V c 2 t) (iblk0 V c 3 t) (iblk0 V c 4 t) (iblk0 V c 5 t) y).trans ?_
  show _ = Cert.GinSpec.rowOut (fun j => V c main_arg0 (ix2 (i 0) j)) (fun j => V c main_v13 (ix2 (i 0) j)) (V c main_v21)
    (fun k => V c main_v16 (ix2 0 k)) (V c main_v23) (fun k => V c main_v19 (ix2 0 k)) (i 1)
  exact rowOut_congr0
    (funext fun j => readX0 V c t (ix2 (y 0) j) (ix2 (i 0) j) h0 rfl)
    (funext fun j => readAgg0 V c t (ix2 (y 0) j) (ix2 (i 0) j) h0 rfl)
    (funext fun z => readW1_0 V c t z)
    (funext fun k => readB1_0 V c t (ix2 0 k))
    (funext fun z => readW2_0 V c t z)
    (funext fun k => readB2_0 V c t (ix2 0 k))
    h1.symm

set_option maxHeartbeats 400000 in
/-- What point t writes back is block t of the layer of the entry arrays. -/
theorem flushedEq0 (t : Fin cfg0.N) :
    (dat0 (F := Ideal) V c).flushed 6 t
      = ((cfg0.win 6).blk t).view.read (Elt Ideal)
          (Cert.GinSpec.layer (V c main_arg0) (V c main_v13) (V c main_v21) (fun k => V c main_v16 (ix2 0 k)) (V c main_v23)
            (fun k => V c main_v19 (ix2 0 k))) := by
  show (cfg0.win 6).cut (grid0.coords t) ((dat0 V c).after 6 t) = _
  rw [after0_6]
  obtain ⟨-, -, -, -, -, -, -, -, -, -, -, -, e60, e61⟩ := blockIndex0 t
  funext y
  exact pointOut0 V c t y (((cfg0.win 6).blk t).view.emb y)
    (by show win0_6.index t (0 : Fin 2) * 5000 + 1 * (y 0).val = t.val * 5000 + (y 0).val; omega)
    (Fin.ext (by show win0_6.index t (1 : Fin 2) * 128 + 1 * (y 1).val = (y 1).val; omega))

/-- An index of the output array lies in point t's block iff each coordinate lies in the block's range on its axis. -/
theorem memBlock0 (t : Fin cfg0.N) (i : S100000x128.Idx) :
    i ∈ ((cfg0.win 6).blk t).view.set
      ↔ ∀ a : Fin 2, win0_6.index t a * S5000x128.size a ≤ (i a).val
          ∧ (i a).val < win0_6.index t a * S5000x128.size a + S5000x128.size a := by
  show i ∈ ((View.whole main_v24).slice (win0_6.rect t)).set ↔ _
  rw [View.set_slice_whole, Rect.mem_set_unit]
  exact Iff.rfl

/-- Every index of the output array lies in the block of a point that writes back: row r lies in block r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < 20 := by omega
  obtain ⟨t, ht⟩ : ∃ t : Fin cfg0.N, t.val = (i 0).val / 5000 := ⟨⟨(i 0).val / 5000, hlt⟩, rfl⟩
  obtain ⟨-, -, -, -, -, -, -, -, -, -, -, -, e60, e61⟩ := blockIndex0 t
  refine ⟨t, flush0_6 t, ?_⟩
  rw [memBlock0]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- The array region 0's output window leaves after its 20 write-backs is the layer of the region's entry arrays. -/
theorem region0_final (V : (c : Dev nD) → (b : Ref sig .tc) → Buf (Elt Ideal) ((c : Thread nD τ).loc b)) (c : Dev nD) :
    (dat0 (F := Ideal) V c).arrAt 6 cfg0.N
      = Cert.GinSpec.layer (V c main_arg0) (V c main_v13) (V c main_v21) (fun k => V c main_v16 (ix2 0 k)) (V c main_v23)
          (fun k => V c main_v19 (ix2 0 k)) :=
  (dat0 (F := Ideal) V c).arrAt_eq_of_cover 6
    (Cert.GinSpec.layer (V c main_arg0) (V c main_v13) (V c main_v21) (fun k => V c main_v16 (ix2 0 k)) (V c main_v23)
      (fun k => V c main_v19 (ix2 0 k)))
    (fun t _ => flushedEq0 V c t) cover0

end Cert.KernelIdeal.Region

end
-- ==== Proof.Region1.lean ====
/-
  Region 1 (layer 1): the array its output window leaves, as the layer function of the arrays the region finds.

  The grid has 20 points; point t reads rows 5000 t .. 5000 t + 4999 of x and of agg (windows 0 and 1) and the whole of the
  two weight matrices and the two bias rows (windows 2 to 5, the same block at every point), and writes rows
  5000 t .. 5000 t + 4999 of the output (window 6). Since a row of a layer's result depends only on that row of x and agg,
  what point t writes back is block t of ONE whole-array function, the layer; the 20 blocks cover the 100000 rows
  (row r lies in block r / 5000), so the array ends holding the layer of the entry arrays.
-/
import proofs.«123225_j53609781789214_1_alg».proof.Proof.Gen.KernelIdeal.Frame
import proofs.«123225_j53609781789214_1_alg».proof.Proof.GinSpec
import proofs.«123225_j53609781789214_1_alg».proof.Proof.PayAt

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

/-- The zero offsets of a rectangle that is the whole buffer, however the zeros are spelt. -/
theorem zeroOffsets1 : (![0, 0] : Fin 2 → Nat) = fun _ => 0 := funext fun a => by fin_cases a <;> rfl

/-- The block indices of region 1's seven windows over its 20 points: the row blocks of x, agg and the output move
    with the point (block (t, 0)); the weights and bias rows stay at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b)) (c : Dev nD)

/-- Row z0, column z1 of x's block at point t is row 5000 t + z0, column z1 of x. -/
theorem readX1 (t : Fin cfg1.N) (z : S5000x128.Idx) (i : S100000x128.Idx)
    (h0 : (i 0).val = t.val * 5000 + (z 0).val) (h1 : (i 1).val = (z 1).val) :
    iblk1 (F := Ideal) V c 0 t z = V c main_v24 i := by
  show V c main_v24 (((cfg1.win 0).blk t).view.emb z) = V c main_v24 i
  obtain ⟨e00, e01, -⟩ := blockIndex1 t
  refine congrArg (V c main_v24) (funext fun a => Fin.ext ?_)
  match a with
  | ⟨0, _⟩ => show win1_0.index t (0 : Fin 2) * 5000 + 1 * (z 0).val = (i 0).val; omega
  | ⟨1, _⟩ => show win1_0.index t (1 : Fin 2) * 128 + 1 * (z 1).val = (i 1).val; omega

/-- Row z0, column z1 of agg's block at point t is row 5000 t + z0, column z1 of agg. -/
theorem readAgg1 (t : Fin cfg1.N) (z : S5000x128.Idx) (i : S100000x128.Idx)
    (h0 : (i 0).val = t.val * 5000 + (z 0).val) (h1 : (i 1).val = (z 1).val) :
    iblk1 (F := Ideal) V c 1 t z = V c main_v34 i := by
  show V c main_v34 (((cfg1.win 1).blk t).view.emb z) = V c main_v34 i
  obtain ⟨-, -, e10, e11, -⟩ := blockIndex1 t
  refine congrArg (V c main_v34) (funext fun a => Fin.ext ?_)
  match a with
  | ⟨0, _⟩ => show win1_1.index t (0 : Fin 2) * 5000 + 1 * (z 0).val = (i 0).val; omega
  | ⟨1, _⟩ => show win1_1.index t (1 : Fin 2) * 128 + 1 * (z 1).val = (i 1).val; omega

/-- The first weight matrix's block at every point is the whole matrix. -/
theorem readW1_1 (t : Fin cfg1.N) (z : S128x128.Idx) : iblk1 (F := Ideal) V c 2 t z = V c main_v42 z := by
  show V c main_v42 (((cfg1.win 2).blk t).view.emb z) = V c main_v42 z
  obtain ⟨-, -, -, -, e20, e21, -⟩ := blockIndex1 t
  refine congrArg (V c main_v42) (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega

/-- The first bias row's block at every point is the whole row. -/
theorem readB1_1 (t : Fin cfg1.N) (z : S1x128.Idx) : iblk1 (F := Ideal) V c 3 t z = V c main_v37 z := by
  show V c main_v37 (((cfg1.win 3).blk t).view.emb z) = V c main_v37 z
  obtain ⟨-, -, -, -, -, -, e30, e31, -⟩ := blockIndex1 t
  refine congrArg (V c main_v37) (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- The second weight matrix's block at every point is the whole matrix. -/
theorem readW2_1 (t : Fin cfg1.N) (z : S128x128.Idx) : iblk1 (F := Ideal) V c 4 t z = V c main_v44 z := by
  show V c main_v44 (((cfg1.win 4).blk t).view.emb z) = V c main_v44 z
  obtain ⟨-, -, -, -, -, -, -, -, e40, e41, -⟩ := blockIndex1 t
  refine congrArg (V c main_v44) (funext fun a => Fin.ext ?_)
  match a with
  | ⟨0, _⟩ => show win1_4.index t (0 : Fin 2) * 128 + 1 * (z 0).val = (z 0).val; omega
  | ⟨1, _⟩ => show win1_4.index t (1 : Fin 2) * 128 + 1 * (z 1).val = (z 1).val; omega

/-- The second bias row's block at every point is the whole row. -/
theorem readB2_1 (t : Fin cfg1.N) (z : S1x128.Idx) : iblk1 (F := Ideal) V c 5 t z = V c main_v40 z := by
  show V c main_v40 (((cfg1.win 5).blk t).view.emb z) = V c main_v40 z
  obtain ⟨-, -, -, -, -, -, -, -, -, -, e50, e51, -⟩ := blockIndex1 t
  refine congrArg (V c main_v40) (funext fun a => Fin.ext ?_)
  match a with
  | ⟨0, _⟩ => show win1_5.index t (0 : Fin 2) * 1 + 1 * (z 0).val = (z 0).val; omega
  | ⟨1, _⟩ => show win1_5.index t (1 : Fin 2) * 128 + 1 * (z 1).val = (z 1).val; omega

/-- What the body leaves in the output buffer, at row y0 and column y1 of the block: the layer's row function of row y0
    of the two loaded row blocks (each load and the one store go through the whole buffer). -/
theorem bodyOut1 (x0 x1 : Vec Ideal S5000x128 .f32) (x2 : Vec Ideal S128x128 .f32) (x3 : Vec Ideal S1x128 .f32)
    (x4 : Vec Ideal S128x128 .f32) (x5 : Vec Ideal S1x128 .f32) (y : S5000x128.Idx) :
    out1_6 (F := Ideal) x0 x1 x2 x3 x4 x5 y
      = Cert.GinSpec.rowOut (fun j => x0 (ix2 (y 0) j)) (fun j => x1 (ix2 (y 0) j)) x2 (fun k => x3 (ix2 0 k)) x4
          (fun k => x5 (ix2 0 k)) (y 1) := by
  unfold out1_6
  rw [View.canon_unit_zero zeroOffsets1]
  simp only [View.ld_unit_zero (S := S5000x128) zeroOffsets1, View.ld_unit_zero (S := S128x128) zeroOffsets1,
    View.ld_unit_zero (S := S1x128) zeroOffsets1]
  obtain ⟨p, q, rfl⟩ : ∃ (p : Fin 5000) (q : Fin 128), y = ix2 p q := ⟨y 0, y 1, eq_ix2 y⟩
  exact PayAt.pay1_at x0 x1 x2 x3 x4 x5 p q

/-- The row function takes equal values at equal arguments. -/
theorem rowOut_congr1 {xr xr' aggr aggr' : Fin 128 → EReal} {w1 w1' : Cert.GinSpec.SW.Idx → EReal} {b1 b1' : Fin 128 → EReal}
    {w2 w2' : Cert.GinSpec.SW.Idx → EReal} {b2 b2' : Fin 128 → EReal} {q q' : Fin 128}
    (hx : xr = xr') (ha : aggr = aggr') (hw1 : w1 = w1') (hb1 : b1 = b1') (hw2 : w2 = w2') (hb2 : b2 = b2') (hq : q = q') :
    Cert.GinSpec.rowOut xr aggr w1 b1 w2 b2 q = Cert.GinSpec.rowOut xr' aggr' w1' b1' w2' b2' q' := by
  subst hx ha hw1 hb1 hw2 hb2 hq; rfl

set_option maxHeartbeats 400000 in
/-- What the body leaves at row y0, column y1 of the output block at point t is the layer of the entry arrays at
    row 5000 t + y0, column y1: the two row blocks are read at that row of x and agg, the weights and bias rows whole. -/
theorem pointOut1 (t : Fin cfg1.N) (y : S5000x128.Idx) (i : S100000x128.Idx)
    (h0 : (i 0).val = t.val * 5000 + (y 0).val) (h1 : i 1 = y 1) :
    out1_6 (F := Ideal) (iblk1 V c 0 t) (iblk1 V c 1 t) (iblk1 V c 2 t) (iblk1 V c 3 t) (iblk1 V c 4 t) (iblk1 V c 5 t) y
      = Cert.GinSpec.layer (V c main_v24) (V c main_v34) (V c main_v42) (fun k => V c main_v37 (ix2 0 k)) (V c main_v44)
          (fun k => V c main_v40 (ix2 0 k)) i := by
  refine (bodyOut1 (iblk1 V c 0 t) (iblk1 V c 1 t) (iblk1 V c 2 t) (iblk1 V c 3 t) (iblk1 V c 4 t) (iblk1 V c 5 t) y).trans ?_
  show _ = Cert.GinSpec.rowOut (fun j => V c main_v24 (ix2 (i 0) j)) (fun j => V c main_v34 (ix2 (i 0) j)) (V c main_v42)
    (fun k => V c main_v37 (ix2 0 k)) (V c main_v44) (fun k => V c main_v40 (ix2 0 k)) (i 1)
  exact rowOut_congr1
    (funext fun j => readX1 V c t (ix2 (y 0) j) (ix2 (i 0) j) h0 rfl)
    (funext fun j => readAgg1 V c t (ix2 (y 0) j) (ix2 (i 0) j) h0 rfl)
    (funext fun z => readW1_1 V c t z)
    (funext fun k => readB1_1 V c t (ix2 0 k))
    (funext fun z => readW2_1 V c t z)
    (funext fun k => readB2_1 V c t (ix2 0 k))
    h1.symm

set_option maxHeartbeats 400000 in
/-- What point t writes back is block t of the layer of the entry arrays. -/
theorem flushedEq1 (t : Fin cfg1.N) :
    (dat1 (F := Ideal) V c).flushed 6 t
      = ((cfg1.win 6).blk t).view.read (Elt Ideal)
          (Cert.GinSpec.layer (V c main_v24) (V c main_v34) (V c main_v42) (fun k => V c main_v37 (ix2 0 k)) (V c main_v44)
            (fun k => V c main_v40 (ix2 0 k))) := by
  show (cfg1.win 6).cut (grid1.coords t) ((dat1 V c).after 6 t) = _
  rw [after1_6]
  obtain ⟨-, -, -, -, -, -, -, -, -, -, -, -, e60, e61⟩ := blockIndex1 t
  funext y
  exact pointOut1 V c t y (((cfg1.win 6).blk t).view.emb y)
    (by show win1_6.index t (0 : Fin 2) * 5000 + 1 * (y 0).val = t.val * 5000 + (y 0).val; omega)
    (Fin.ext (by show win1_6.index t (1 : Fin 2) * 128 + 1 * (y 1).val = (y 1).val; omega))

/-- An index of the output array lies in point t's block iff each coordinate lies in the block's range on its axis. -/
theorem memBlock1 (t : Fin cfg1.N) (i : S100000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v45).slice (win1_6.rect t)).set ↔ _
  rw [View.set_slice_whole, Rect.mem_set_unit]
  exact Iff.rfl

/-- Every index of the output array lies in the block of a point that writes back: row r lies in block r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < 20 := by omega
  obtain ⟨t, ht⟩ : ∃ t : Fin cfg1.N, t.val = (i 0).val / 5000 := ⟨⟨(i 0).val / 5000, hlt⟩, rfl⟩
  obtain ⟨-, -, -, -, -, -, -, -, -, -, -, -, e60, e61⟩ := blockIndex1 t
  refine ⟨t, flush1_6 t, ?_⟩
  rw [memBlock1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- The array region 1's output window leaves after its 20 write-backs is the layer of the region's entry arrays. -/
theorem region1_final (V : (c : Dev nD) → (b : Ref sig .tc) → Buf (Elt Ideal) ((c : Thread nD τ).loc b)) (c : Dev nD) :
    (dat1 (F := Ideal) V c).arrAt 6 cfg1.N
      = Cert.GinSpec.layer (V c main_v24) (V c main_v34) (V c main_v42) (fun k => V c main_v37 (ix2 0 k)) (V c main_v44)
          (fun k => V c main_v40 (ix2 0 k)) :=
  (dat1 (F := Ideal) V c).arrAt_eq_of_cover 6
    (Cert.GinSpec.layer (V c main_v24) (V c main_v34) (V c main_v42) (fun k => V c main_v37 (ix2 0 k)) (V c main_v44)
      (fun k => V c main_v40 (ix2 0 k)))
    (fun t _ => flushedEq1 V c t) cover1

end Cert.KernelIdeal.Region

end
-- ==== Proof.Region2.lean ====
/-
  Region 2 (layer 2): the array its output window leaves, as the layer function of the arrays the region finds.

  The grid has 20 points; point t reads rows 5000 t .. 5000 t + 4999 of x and of agg (windows 0 and 1) and the whole of the
  two weight matrices and the two bias rows (windows 2 to 5, the same block at every point), and writes rows
  5000 t .. 5000 t + 4999 of the output (window 6). Since a row of a layer's result depends only on that row of x and agg,
  what point t writes back is block t of ONE whole-array function, the layer; the 20 blocks cover the 100000 rows
  (row r lies in block r / 5000), so the array ends holding the layer of the entry arrays.
-/
import proofs.«123225_j53609781789214_1_alg».proof.Proof.Gen.KernelIdeal.Frame
import proofs.«123225_j53609781789214_1_alg».proof.Proof.GinSpec
import proofs.«123225_j53609781789214_1_alg».proof.Proof.PayAt

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

/-- The zero offsets of a rectangle that is the whole buffer, however the zeros are spelt. -/
theorem zeroOffsets2 : (![0, 0] : Fin 2 → Nat) = fun _ => 0 := funext fun a => by fin_cases a <;> rfl

/-- The block indices of region 2's seven windows over its 20 points: the row blocks of x, agg and the output move
    with the point (block (t, 0)); the weights and bias rows stay at block (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b)) (c : Dev nD)

/-- Row z0, column z1 of x's block at point t is row 5000 t + z0, column z1 of x. -/
theorem readX2 (t : Fin cfg2.N) (z : S5000x128.Idx) (i : S100000x128.Idx)
    (h0 : (i 0).val = t.val * 5000 + (z 0).val) (h1 : (i 1).val = (z 1).val) :
    iblk2 (F := Ideal) V c 0 t z = V c main_v45 i := by
  show V c main_v45 (((cfg2.win 0).blk t).view.emb z) = V c main_v45 i
  obtain ⟨e00, e01, -⟩ := blockIndex2 t
  refine congrArg (V c main_v45) (funext fun a => Fin.ext ?_)
  match a with
  | ⟨0, _⟩ => show win2_0.index t (0 : Fin 2) * 5000 + 1 * (z 0).val = (i 0).val; omega
  | ⟨1, _⟩ => show win2_0.index t (1 : Fin 2) * 128 + 1 * (z 1).val = (i 1).val; omega

/-- Row z0, column z1 of agg's block at point t is row 5000 t + z0, column z1 of agg. -/
theorem readAgg2 (t : Fin cfg2.N) (z : S5000x128.Idx) (i : S100000x128.Idx)
    (h0 : (i 0).val = t.val * 5000 + (z 0).val) (h1 : (i 1).val = (z 1).val) :
    iblk2 (F := Ideal) V c 1 t z = V c main_v55 i := by
  show V c main_v55 (((cfg2.win 1).blk t).view.emb z) = V c main_v55 i
  obtain ⟨-, -, e10, e11, -⟩ := blockIndex2 t
  refine congrArg (V c main_v55) (funext fun a => Fin.ext ?_)
  match a with
  | ⟨0, _⟩ => show win2_1.index t (0 : Fin 2) * 5000 + 1 * (z 0).val = (i 0).val; omega
  | ⟨1, _⟩ => show win2_1.index t (1 : Fin 2) * 128 + 1 * (z 1).val = (i 1).val; omega

/-- The first weight matrix's block at every point is the whole matrix. -/
theorem readW1_2 (t : Fin cfg2.N) (z : S128x128.Idx) : iblk2 (F := Ideal) V c 2 t z = V c main_v63 z := by
  show V c main_v63 (((cfg2.win 2).blk t).view.emb z) = V c main_v63 z
  obtain ⟨-, -, -, -, e20, e21, -⟩ := blockIndex2 t
  refine congrArg (V c main_v63) (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

/-- The first bias row's block at every point is the whole row. -/
theorem readB1_2 (t : Fin cfg2.N) (z : S1x128.Idx) : iblk2 (F := Ideal) V c 3 t z = V c main_v58 z := by
  show V c main_v58 (((cfg2.win 3).blk t).view.emb z) = V c main_v58 z
  obtain ⟨-, -, -, -, -, -, e30, e31, -⟩ := blockIndex2 t
  refine congrArg (V c main_v58) (funext fun a => Fin.ext ?_)
  match a with
  | ⟨0, _⟩ => show win2_3.index t (0 : Fin 2) * 1 + 1 * (z 0).val = (z 0).val; omega
  | ⟨1, _⟩ => show win2_3.index t (1 : Fin 2) * 128 + 1 * (z 1).val = (z 1).val; omega

/-- The second weight matrix's block at every point is the whole matrix. -/
theorem readW2_2 (t : Fin cfg2.N) (z : S128x128.Idx) : iblk2 (F := Ideal) V c 4 t z = V c main_v65 z := by
  show V c main_v65 (((cfg2.win 4).blk t).view.emb z) = V c main_v65 z
  obtain ⟨-, -, -, -, -, -, -, -, e40, e41, -⟩ := blockIndex2 t
  refine congrArg (V c main_v65) (funext fun a => Fin.ext ?_)
  match a with
  | ⟨0, _⟩ => show win2_4.index t (0 : Fin 2) * 128 + 1 * (z 0).val = (z 0).val; omega
  | ⟨1, _⟩ => show win2_4.index t (1 : Fin 2) * 128 + 1 * (z 1).val = (z 1).val; omega

/-- The second bias row's block at every point is the whole row. -/
theorem readB2_2 (t : Fin cfg2.N) (z : S1x128.Idx) : iblk2 (F := Ideal) V c 5 t z = V c main_v61 z := by
  show V c main_v61 (((cfg2.win 5).blk t).view.emb z) = V c main_v61 z
  obtain ⟨-, -, -, -, -, -, -, -, -, -, e50, e51, -⟩ := blockIndex2 t
  refine congrArg (V c main_v61) (funext fun a => Fin.ext ?_)
  match a with
  | ⟨0, _⟩ => show win2_5.index t (0 : Fin 2) * 1 + 1 * (z 0).val = (z 0).val; omega
  | ⟨1, _⟩ => show win2_5.index t (1 : Fin 2) * 128 + 1 * (z 1).val = (z 1).val; omega

/-- What the body leaves in the output buffer, at row y0 and column y1 of the block: the layer's row function of row y0
    of the two loaded row blocks (each load and the one store go through the whole buffer). -/
theorem bodyOut2 (x0 x1 : Vec Ideal S5000x128 .f32) (x2 : Vec Ideal S128x128 .f32) (x3 : Vec Ideal S1x128 .f32)
    (x4 : Vec Ideal S128x128 .f32) (x5 : Vec Ideal S1x128 .f32) (y : S5000x128.Idx) :
    out2_6 (F := Ideal) x0 x1 x2 x3 x4 x5 y
      = Cert.GinSpec.rowOut (fun j => x0 (ix2 (y 0) j)) (fun j => x1 (ix2 (y 0) j)) x2 (fun k => x3 (ix2 0 k)) x4
          (fun k => x5 (ix2 0 k)) (y 1) := by
  unfold out2_6
  rw [View.canon_unit_zero zeroOffsets2]
  simp only [View.ld_unit_zero (S := S5000x128) zeroOffsets2, View.ld_unit_zero (S := S128x128) zeroOffsets2,
    View.ld_unit_zero (S := S1x128) zeroOffsets2]
  obtain ⟨p, q, rfl⟩ : ∃ (p : Fin 5000) (q : Fin 128), y = ix2 p q := ⟨y 0, y 1, eq_ix2 y⟩
  exact PayAt.pay2_at x0 x1 x2 x3 x4 x5 p q

/-- The row function takes equal values at equal arguments. -/
theorem rowOut_congr2 {xr xr' aggr aggr' : Fin 128 → EReal} {w1 w1' : Cert.GinSpec.SW.Idx → EReal} {b1 b1' : Fin 128 → EReal}
    {w2 w2' : Cert.GinSpec.SW.Idx → EReal} {b2 b2' : Fin 128 → EReal} {q q' : Fin 128}
    (hx : xr = xr') (ha : aggr = aggr') (hw1 : w1 = w1') (hb1 : b1 = b1') (hw2 : w2 = w2') (hb2 : b2 = b2') (hq : q = q') :
    Cert.GinSpec.rowOut xr aggr w1 b1 w2 b2 q = Cert.GinSpec.rowOut xr' aggr' w1' b1' w2' b2' q' := by
  subst hx ha hw1 hb1 hw2 hb2 hq; rfl

set_option maxHeartbeats 400000 in
/-- What the body leaves at row y0, column y1 of the output block at point t is the layer of the entry arrays at
    row 5000 t + y0, column y1: the two row blocks are read at that row of x and agg, the weights and bias rows whole. -/
theorem pointOut2 (t : Fin cfg2.N) (y : S5000x128.Idx) (i : S100000x128.Idx)
    (h0 : (i 0).val = t.val * 5000 + (y 0).val) (h1 : i 1 = y 1) :
    out2_6 (F := Ideal) (iblk2 V c 0 t) (iblk2 V c 1 t) (iblk2 V c 2 t) (iblk2 V c 3 t) (iblk2 V c 4 t) (iblk2 V c 5 t) y
      = Cert.GinSpec.layer (V c main_v45) (V c main_v55) (V c main_v63) (fun k => V c main_v58 (ix2 0 k)) (V c main_v65)
          (fun k => V c main_v61 (ix2 0 k)) i := by
  refine (bodyOut2 (iblk2 V c 0 t) (iblk2 V c 1 t) (iblk2 V c 2 t) (iblk2 V c 3 t) (iblk2 V c 4 t) (iblk2 V c 5 t) y).trans ?_
  show _ = Cert.GinSpec.rowOut (fun j => V c main_v45 (ix2 (i 0) j)) (fun j => V c main_v55 (ix2 (i 0) j)) (V c main_v63)
    (fun k => V c main_v58 (ix2 0 k)) (V c main_v65) (fun k => V c main_v61 (ix2 0 k)) (i 1)
  exact rowOut_congr2
    (funext fun j => readX2 V c t (ix2 (y 0) j) (ix2 (i 0) j) h0 rfl)
    (funext fun j => readAgg2 V c t (ix2 (y 0) j) (ix2 (i 0) j) h0 rfl)
    (funext fun z => readW1_2 V c t z)
    (funext fun k => readB1_2 V c t (ix2 0 k))
    (funext fun z => readW2_2 V c t z)
    (funext fun k => readB2_2 V c t (ix2 0 k))
    h1.symm

set_option maxHeartbeats 400000 in
/-- What point t writes back is block t of the layer of the entry arrays. -/
theorem flushedEq2 (t : Fin cfg2.N) :
    (dat2 (F := Ideal) V c).flushed 6 t
      = ((cfg2.win 6).blk t).view.read (Elt Ideal)
          (Cert.GinSpec.layer (V c main_v45) (V c main_v55) (V c main_v63) (fun k => V c main_v58 (ix2 0 k)) (V c main_v65)
            (fun k => V c main_v61 (ix2 0 k))) := by
  show (cfg2.win 6).cut (grid2.coords t) ((dat2 V c).after 6 t) = _
  rw [after2_6]
  obtain ⟨-, -, -, -, -, -, -, -, -, -, -, -, e60, e61⟩ := blockIndex2 t
  funext y
  exact pointOut2 V c t y (((cfg2.win 6).blk t).view.emb y)
    (by show win2_6.index t (0 : Fin 2) * 5000 + 1 * (y 0).val = t.val * 5000 + (y 0).val; omega)
    (Fin.ext (by show win2_6.index t (1 : Fin 2) * 128 + 1 * (y 1).val = (y 1).val; omega))

/-- An index of the output array lies in point t's block iff each coordinate lies in the block's range on its axis. -/
theorem memBlock2 (t : Fin cfg2.N) (i : S100000x128.Idx) :
    i ∈ ((cfg2.win 6).blk t).view.set
      ↔ ∀ a : Fin 2, win2_6.index t a * S5000x128.size a ≤ (i a).val
          ∧ (i a).val < win2_6.index t a * S5000x128.size a + S5000x128.size a := by
  show i ∈ ((View.whole main_v66).slice (win2_6.rect t)).set ↔ _
  rw [View.set_slice_whole, Rect.mem_set_unit]
  exact Iff.rfl

/-- Every index of the output array lies in the block of a point that writes back: row r lies in block r / 5000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 5000 < 20 := by omega
  obtain ⟨t, ht⟩ : ∃ t : Fin cfg2.N, t.val = (i 0).val / 5000 := ⟨⟨(i 0).val / 5000, hlt⟩, rfl⟩
  obtain ⟨-, -, -, -, -, -, -, -, -, -, -, -, e60, e61⟩ := blockIndex2 t
  refine ⟨t, flush2_6 t, ?_⟩
  rw [memBlock2]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- The array region 2's output window leaves after its 20 write-backs is the layer of the region's entry arrays. -/
theorem region2_final (V : (c : Dev nD) → (b : Ref sig .tc) → Buf (Elt Ideal) ((c : Thread nD τ).loc b)) (c : Dev nD) :
    (dat2 (F := Ideal) V c).arrAt 6 cfg2.N
      = Cert.GinSpec.layer (V c main_v45) (V c main_v55) (V c main_v63) (fun k => V c main_v58 (ix2 0 k)) (V c main_v65)
          (fun k => V c main_v61 (ix2 0 k)) :=
  (dat2 (F := Ideal) V c).arrAt_eq_of_cover 6
    (Cert.GinSpec.layer (V c main_v45) (V c main_v55) (V c main_v63) (fun k => V c main_v58 (ix2 0 k)) (V c main_v65)
      (fun k => V c main_v61 (ix2 0 k)))
    (fun t _ => flushedEq2 V c t) cover2

end Cert.KernelIdeal.Region

end
-- ==== Proof.Region3.lean ====
/-
  Region 3 (layer 3): the array its output window leaves, as the layer function of the arrays the region finds.

  The grid has 20 points; point t reads rows 5000 t .. 5000 t + 4999 of x and of agg (windows 0 and 1) and the whole of the
  two weight matrices and the two bias rows (windows 2 to 5, the same block at every point), and writes rows
  5000 t .. 5000 t + 4999 of the output (window 6). Since a row of a layer's result depends only on that row of x and agg,
  what point t writes back is block t of ONE whole-array function, the layer; the 20 blocks cover the 100000 rows
  (row r lies in block r / 5000), so the array ends holding the layer of the entry arrays.
-/
import proofs.«123225_j53609781789214_1_alg».proof.Proof.Gen.KernelIdeal.Frame
import proofs.«123225_j53609781789214_1_alg».proof.Proof.GinSpec
import proofs.«123225_j53609781789214_1_alg».proof.Proof.PayAt

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

/-- The zero offsets of a rectangle that is the whole buffer, however the zeros are spelt. -/
theorem zeroOffsets3 : (![0, 0] : Fin 2 → Nat) = fun _ => 0 := funext fun a => by fin_cases a <;> rfl

/-- The block indices of region 3's seven windows over its 20 points: the row blocks of x, agg and the output move
    with the point (block (t, 0)); the weights and bias rows stay at block (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b)) (c : Dev nD)

/-- Row z0, column z1 of x's block at point t is row 5000 t + z0, column z1 of x. -/
theorem readX3 (t : Fin cfg3.N) (z : S5000x128.Idx) (i : S100000x128.Idx)
    (h0 : (i 0).val = t.val * 5000 + (z 0).val) (h1 : (i 1).val = (z 1).val) :
    iblk3 (F := Ideal) V c 0 t z = V c main_v66 i := by
  show V c main_v66 (((cfg3.win 0).blk t).view.emb z) = V c main_v66 i
  obtain ⟨e00, e01, -⟩ := blockIndex3 t
  refine congrArg (V c main_v66) (funext fun a => Fin.ext ?_)
  match a with
  | ⟨0, _⟩ => show win3_0.index t (0 : Fin 2) * 5000 + 1 * (z 0).val = (i 0).val; omega
  | ⟨1, _⟩ => show win3_0.index t (1 : Fin 2) * 128 + 1 * (z 1).val = (i 1).val; omega

/-- Row z0, column z1 of agg's block at point t is row 5000 t + z0, column z1 of agg. -/
theorem readAgg3 (t : Fin cfg3.N) (z : S5000x128.Idx) (i : S100000x128.Idx)
    (h0 : (i 0).val = t.val * 5000 + (z 0).val) (h1 : (i 1).val = (z 1).val) :
    iblk3 (F := Ideal) V c 1 t z = V c main_v76 i := by
  show V c main_v76 (((cfg3.win 1).blk t).view.emb z) = V c main_v76 i
  obtain ⟨-, -, e10, e11, -⟩ := blockIndex3 t
  refine congrArg (V c main_v76) (funext fun a => Fin.ext ?_)
  match a with
  | ⟨0, _⟩ => show win3_1.index t (0 : Fin 2) * 5000 + 1 * (z 0).val = (i 0).val; omega
  | ⟨1, _⟩ => show win3_1.index t (1 : Fin 2) * 128 + 1 * (z 1).val = (i 1).val; omega

/-- The first weight matrix's block at every point is the whole matrix. -/
theorem readW1_3 (t : Fin cfg3.N) (z : S128x128.Idx) : iblk3 (F := Ideal) V c 2 t z = V c main_v84 z := by
  show V c main_v84 (((cfg3.win 2).blk t).view.emb z) = V c main_v84 z
  obtain ⟨-, -, -, -, e20, e21, -⟩ := blockIndex3 t
  refine congrArg (V c main_v84) (funext fun a => Fin.ext ?_)
  match a with
  | ⟨0, _⟩ => show win3_2.index t (0 : Fin 2) * 128 + 1 * (z 0).val = (z 0).val; omega
  | ⟨1, _⟩ => show win3_2.index t (1 : Fin 2) * 128 + 1 * (z 1).val = (z 1).val; omega

/-- The first bias row's block at every point is the whole row. -/
theorem readB1_3 (t : Fin cfg3.N) (z : S1x128.Idx) : iblk3 (F := Ideal) V c 3 t z = V c main_v79 z := by
  show V c main_v79 (((cfg3.win 3).blk t).view.emb z) = V c main_v79 z
  obtain ⟨-, -, -, -, -, -, e30, e31, -⟩ := blockIndex3 t
  refine congrArg (V c main_v79) (funext fun a => Fin.ext ?_)
  match a with
  | ⟨0, _⟩ => show win3_3.index t (0 : Fin 2) * 1 + 1 * (z 0).val = (z 0).val; omega
  | ⟨1, _⟩ => show win3_3.index t (1 : Fin 2) * 128 + 1 * (z 1).val = (z 1).val; omega

/-- The second weight matrix's block at every point is the whole matrix. -/
theorem readW2_3 (t : Fin cfg3.N) (z : S128x128.Idx) : iblk3 (F := Ideal) V c 4 t z = V c main_v86 z := by
  show V c main_v86 (((cfg3.win 4).blk t).view.emb z) = V c main_v86 z
  obtain ⟨-, -, -, -, -, -, -, -, e40, e41, -⟩ := blockIndex3 t
  refine congrArg (V c main_v86) (funext fun a => Fin.ext ?_)
  match a with
  | ⟨0, _⟩ => show win3_4.index t (0 : Fin 2) * 128 + 1 * (z 0).val = (z 0).val; omega
  | ⟨1, _⟩ => show win3_4.index t (1 : Fin 2) * 128 + 1 * (z 1).val = (z 1).val; omega

/-- The second bias row's block at every point is the whole row. -/
theorem readB2_3 (t : Fin cfg3.N) (z : S1x128.Idx) : iblk3 (F := Ideal) V c 5 t z = V c main_v82 z := by
  show V c main_v82 (((cfg3.win 5).blk t).view.emb z) = V c main_v82 z
  obtain ⟨-, -, -, -, -, -, -, -, -, -, e50, e51, -⟩ := blockIndex3 t
  refine congrArg (V c main_v82) (funext fun a => Fin.ext ?_)
  match a with
  | ⟨0, _⟩ => show win3_5.index t (0 : Fin 2) * 1 + 1 * (z 0).val = (z 0).val; omega
  | ⟨1, _⟩ => show win3_5.index t (1 : Fin 2) * 128 + 1 * (z 1).val = (z 1).val; omega

/-- What the body leaves in the output buffer, at row y0 and column y1 of the block: the layer's row function of row y0
    of the two loaded row blocks (each load and the one store go through the whole buffer). -/
theorem bodyOut3 (x0 x1 : Vec Ideal S5000x128 .f32) (x2 : Vec Ideal S128x128 .f32) (x3 : Vec Ideal S1x128 .f32)
    (x4 : Vec Ideal S128x128 .f32) (x5 : Vec Ideal S1x128 .f32) (y : S5000x128.Idx) :
    out3_6 (F := Ideal) x0 x1 x2 x3 x4 x5 y
      = Cert.GinSpec.rowOut (fun j => x0 (ix2 (y 0) j)) (fun j => x1 (ix2 (y 0) j)) x2 (fun k => x3 (ix2 0 k)) x4
          (fun k => x5 (ix2 0 k)) (y 1) := by
  unfold out3_6
  rw [View.canon_unit_zero zeroOffsets3]
  simp only [View.ld_unit_zero (S := S5000x128) zeroOffsets3, View.ld_unit_zero (S := S128x128) zeroOffsets3,
    View.ld_unit_zero (S := S1x128) zeroOffsets3]
  obtain ⟨p, q, rfl⟩ : ∃ (p : Fin 5000) (q : Fin 128), y = ix2 p q := ⟨y 0, y 1, eq_ix2 y⟩
  exact PayAt.pay3_at x0 x1 x2 x3 x4 x5 p q

/-- The row function takes equal values at equal arguments. -/
theorem rowOut_congr3 {xr xr' aggr aggr' : Fin 128 → EReal} {w1 w1' : Cert.GinSpec.SW.Idx → EReal} {b1 b1' : Fin 128 → EReal}
    {w2 w2' : Cert.GinSpec.SW.Idx → EReal} {b2 b2' : Fin 128 → EReal} {q q' : Fin 128}
    (hx : xr = xr') (ha : aggr = aggr') (hw1 : w1 = w1') (hb1 : b1 = b1') (hw2 : w2 = w2') (hb2 : b2 = b2') (hq : q = q') :
    Cert.GinSpec.rowOut xr aggr w1 b1 w2 b2 q = Cert.GinSpec.rowOut xr' aggr' w1' b1' w2' b2' q' := by
  subst hx ha hw1 hb1 hw2 hb2 hq; rfl

set_option maxHeartbeats 400000 in
/-- What the body leaves at row y0, column y1 of the output block at point t is the layer of the entry arrays at
    row 5000 t + y0, column y1: the two row blocks are read at that row of x and agg, the weights and bias rows whole. -/
theorem pointOut3 (t : Fin cfg3.N) (y : S5000x128.Idx) (i : S100000x128.Idx)
    (h0 : (i 0).val = t.val * 5000 + (y 0).val) (h1 : i 1 = y 1) :
    out3_6 (F := Ideal) (iblk3 V c 0 t) (iblk3 V c 1 t) (iblk3 V c 2 t) (iblk3 V c 3 t) (iblk3 V c 4 t) (iblk3 V c 5 t) y
      = Cert.GinSpec.layer (V c main_v66) (V c main_v76) (V c main_v84) (fun k => V c main_v79 (ix2 0 k)) (V c main_v86)
          (fun k => V c main_v82 (ix2 0 k)) i := by
  refine (bodyOut3 (iblk3 V c 0 t) (iblk3 V c 1 t) (iblk3 V c 2 t) (iblk3 V c 3 t) (iblk3 V c 4 t) (iblk3 V c 5 t) y).trans ?_
  show _ = Cert.GinSpec.rowOut (fun j => V c main_v66 (ix2 (i 0) j)) (fun j => V c main_v76 (ix2 (i 0) j)) (V c main_v84)
    (fun k => V c main_v79 (ix2 0 k)) (V c main_v86) (fun k => V c main_v82 (ix2 0 k)) (i 1)
  exact rowOut_congr3
    (funext fun j => readX3 V c t (ix2 (y 0) j) (ix2 (i 0) j) h0 rfl)
    (funext fun j => readAgg3 V c t (ix2 (y 0) j) (ix2 (i 0) j) h0 rfl)
    (funext fun z => readW1_3 V c t z)
    (funext fun k => readB1_3 V c t (ix2 0 k))
    (funext fun z => readW2_3 V c t z)
    (funext fun k => readB2_3 V c t (ix2 0 k))
    h1.symm

set_option maxHeartbeats 400000 in
/-- What point t writes back is block t of the layer of the entry arrays. -/
theorem flushedEq3 (t : Fin cfg3.N) :
    (dat3 (F := Ideal) V c).flushed 6 t
      = ((cfg3.win 6).blk t).view.read (Elt Ideal)
          (Cert.GinSpec.layer (V c main_v66) (V c main_v76) (V c main_v84) (fun k => V c main_v79 (ix2 0 k)) (V c main_v86)
            (fun k => V c main_v82 (ix2 0 k))) := by
  show (cfg3.win 6).cut (grid3.coords t) ((dat3 V c).after 6 t) = _
  rw [after3_6]
  obtain ⟨-, -, -, -, -, -, -, -, -, -, -, -, e60, e61⟩ := blockIndex3 t
  funext y
  exact pointOut3 V c t y (((cfg3.win 6).blk t).view.emb y)
    (by show win3_6.index t (0 : Fin 2) * 5000 + 1 * (y 0).val = t.val * 5000 + (y 0).val; omega)
    (Fin.ext (by show win3_6.index t (1 : Fin 2) * 128 + 1 * (y 1).val = (y 1).val; omega))

/-- An index of the output array lies in point t's block iff each coordinate lies in the block's range on its axis. -/
theorem memBlock3 (t : Fin cfg3.N) (i : S100000x128.Idx) :
    i ∈ ((cfg3.win 6).blk t).view.set
      ↔ ∀ a : Fin 2, win3_6.index t a * S5000x128.size a ≤ (i a).val
          ∧ (i a).val < win3_6.index t a * S5000x128.size a + S5000x128.size a := by
  show i ∈ ((View.whole main_v87).slice (win3_6.rect t)).set ↔ _
  rw [View.set_slice_whole, Rect.mem_set_unit]
  exact Iff.rfl

/-- Every index of the output array lies in the block of a point that writes back: row r lies in block r / 5000. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hlt : (i 0).val / 5000 < 20 := by omega
  obtain ⟨t, ht⟩ : ∃ t : Fin cfg3.N, t.val = (i 0).val / 5000 := ⟨⟨(i 0).val / 5000, hlt⟩, rfl⟩
  obtain ⟨-, -, -, -, -, -, -, -, -, -, -, -, e60, e61⟩ := blockIndex3 t
  refine ⟨t, flush3_6 t, ?_⟩
  rw [memBlock3]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 128 ≤ (i 1).val ∧ (i 1).val < win3_6.index t (1 : Fin 2) * 128 + 128
    omega

/-- The array region 3's output window leaves after its 20 write-backs is the layer of the region's entry arrays. -/
theorem region3_final (V : (c : Dev nD) → (b : Ref sig .tc) → Buf (Elt Ideal) ((c : Thread nD τ).loc b)) (c : Dev nD) :
    (dat3 (F := Ideal) V c).arrAt 6 cfg3.N
      = Cert.GinSpec.layer (V c main_v66) (V c main_v76) (V c main_v84) (fun k => V c main_v79 (ix2 0 k)) (V c main_v86)
          (fun k => V c main_v82 (ix2 0 k)) :=
  (dat3 (F := Ideal) V c).arrAt_eq_of_cover 6
    (Cert.GinSpec.layer (V c main_v66) (V c main_v76) (V c main_v84) (fun k => V c main_v79 (ix2 0 k)) (V c main_v86)
      (fun k => V c main_v82 (ix2 0 k)))
    (fun t _ => flushedEq3 V c t) cover3

end Cert.KernelIdeal.Region

end
-- ==== Proof.KernelNet.lean ====
/-
  The idealized kernel program's result as the four-layer network of its argument arrays.

  Between the regions the host operations (a) split the edge list into its source row and target row, (b) aggregate:
  gather the source rows of the current features and scatter-add them at the target rows, (c) cut layer l's weight
  matrices and bias rows out of the stacked parameters. None of them writes an argument array, the edge rows, or an
  earlier region's result, so each region is entered with: the previous region's result (the launch features for the
  first), its aggregation, and layer l's parameters. Each region leaves the layer of those (Region0 .. Region3), so the
  last boundary holds the network of the launch arrays at the result buffer.
-/
import proofs.«123225_j53609781789214_1_alg».proof.Proof.Gen.KernelIdeal.Frame
import proofs.«123225_j53609781789214_1_alg».proof.Proof.GinSpec
import proofs.«123225_j53609781789214_1_alg».proof.Proof.Region0
import proofs.«123225_j53609781789214_1_alg».proof.Proof.Region1
import proofs.«123225_j53609781789214_1_alg».proof.Proof.Region2
import proofs.«123225_j53609781789214_1_alg».proof.Proof.Region3
import Idealize.ShloMosaic.Lib.StableHlo.Run
import Idealize.ShloMosaic.Lib.ValueLayout
import Idealize.ShloMosaic.Lib.Pipeline.Value

set_option maxRecDepth 16384

noncomputable section

namespace Cert.KernelIdeal.KNet

open Idealize.ShloMosaic Idealize.ShloMosaic.TcCoe Idealize.ShloMosaic.ValueIdx Idealize.SL.Sem
open Cert.KernelIdeal Cert.KernelIdeal.Gen

/-- The source node of each edge: row 0 of the edge list. -/
def srcK (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The target node of each edge: row 1 of the edge list. -/
def dstK (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The aggregation, as the host operations write it: a negative source index is shifted by the node count, the source
    rows are gathered, and the gathered rows are scatter-added into zeros at the target rows. Never opened. -/
def aggK (ei : (⟨S2x1600000, .i32⟩ : BufTy).Contents (Elt Ideal)) (x : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstK ei))
    (Host.gather gather_S100000x128_S1600000x1_S1600000x128_1_0_n_n_0_1_1128 x
      (broadcastInDim S1600000x1 ![0] bcast_S1600000_S1600000x1_0
        (select (cmpi .slt (srcK ei) (broadcastInDim S1600000 ![] bcast_S_S1600000 (constantI S_ 32 0#32)))
          (addi (srcK ei) (broadcastInDim S1600000 ![] bcast_S_S1600000 (constantI S_ 32 100000#32))) (srcK ei))))

/-- Layer l's weight matrix cut out of a stacked [4, 128, 128] parameter. -/
def wK (a : (⟨S4x128x128, .f32⟩ : BufTy).Contents (Elt Ideal)) : Fin 4 → (⟨S128x128, .f32⟩ : BufTy).Contents (Elt Ideal)
  | 0 => shapeCast _ (extractStridedSlice S1x128x128 ![0, 0, 0] a slices_S4x128x128_S1x128x128_0_0_0) shapeCasts_S1x128x128_S128x128
  | 1 => shapeCast _ (extractStridedSlice S1x128x128 ![1, 0, 0] a slices_S4x128x128_S1x128x128_1_0_0) shapeCasts_S1x128x128_S128x128
  | 2 => shapeCast _ (extractStridedSlice S1x128x128 ![2, 0, 0] a slices_S4x128x128_S1x128x128_2_0_0) shapeCasts_S1x128x128_S128x128
  | 3 => shapeCast _ (extractStridedSlice S1x128x128 ![3, 0, 0] a slices_S4x128x128_S1x128x128_3_0_0) shapeCasts_S1x128x128_S128x128

/-- Layer l's bias row cut out of a stacked [4, 128] parameter, as a vector [128]. -/
def bK (a : (⟨S4x128, .f32⟩ : BufTy).Contents (Elt Ideal)) : Fin 4 → (⟨S128, .f32⟩ : BufTy).Contents (Elt Ideal)
  | 0 => shapeCast _ (extractStridedSlice S1x128 ![0, 0] a slices_S4x128_S1x128_0_0) shapeCasts_S1x128_S128
  | 1 => shapeCast _ (extractStridedSlice S1x128 ![1, 0] a slices_S4x128_S1x128_1_0) shapeCasts_S1x128_S128
  | 2 => shapeCast _ (extractStridedSlice S1x128 ![2, 0] a slices_S4x128_S1x128_2_0) shapeCasts_S1x128_S128
  | 3 => shapeCast _ (extractStridedSlice S1x128 ![3, 0] a slices_S4x128_S1x128_3_0) shapeCasts_S1x128_S128

/-! ## A stretch leaves a buffer it does not write as it found it -/

/-- Closes "no operation of the stretch writes this buffer": the stretch's operations' result buffers, one by one, are
    other references than the one read. -/
local macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## What a stretch writes, and what it leaves

Every lemma of this section is about ONE stretch of host operations run from arbitrary contents W: the buffers it leaves
as found, and the buffers it writes as the operations' term of what it found. -/

section Stretches

variable (W : Valuation τ sig (Elt Ideal))

/-! ### The first stretch: the edge rows, the aggregation of the launch features, layer 0's parameters -/

/-- The first stretch leaves the launch features as found. -/
theorem keep0_arg0 : StableHlo.after (hostOps0 (F := Ideal)) W (Proc.devRef .tc main_arg0) = W (Proc.devRef .tc main_arg0) :=
  StableHlo.after_of_forall_not_mem (b := Proc.devRef .tc main_arg0) _ _ (by not_written hostOps0)
/-- The first stretch leaves the stacked first weight matrices as found. -/
theorem keep0_arg2 : StableHlo.after (hostOps0 (F := Ideal)) W (Proc.devRef .tc main_arg2) = W (Proc.devRef .tc main_arg2) :=
  StableHlo.after_of_forall_not_mem (b := Proc.devRef .tc main_arg2) _ _ (by not_written hostOps0)
/-- The first stretch leaves the stacked first bias rows as found. -/
theorem keep0_arg3 : StableHlo.after (hostOps0 (F := Ideal)) W (Proc.devRef .tc main_arg3) = W (Proc.devRef .tc main_arg3) :=
  StableHlo.after_of_forall_not_mem (b := Proc.devRef .tc main_arg3) _ _ (by not_written hostOps0)
/-- The first stretch leaves the stacked second weight matrices as found. -/
theorem keep0_arg4 : StableHlo.after (hostOps0 (F := Ideal)) W (Proc.devRef .tc main_arg4) = W (Proc.devRef .tc main_arg4) :=
  StableHlo.after_of_forall_not_mem (b := Proc.devRef .tc main_arg4) _ _ (by not_written hostOps0)
/-- The first stretch leaves the stacked second bias rows as found. -/
theorem keep0_arg5 : StableHlo.after (hostOps0 (F := Ideal)) W (Proc.devRef .tc main_arg5) = W (Proc.devRef .tc main_arg5) :=
  StableHlo.after_of_forall_not_mem (b := Proc.devRef .tc main_arg5) _ _ (by not_written hostOps0)

/-- The first stretch writes the edges' source row: row 0 of the edge list. -/
theorem src0 : StableHlo.after (hostOps0 (F := Ideal)) W (Proc.devRef .tc main_v1) = srcK (W (Proc.devRef .tc main_arg1)) := by
  after_results_simp; rfl
/-- The first stretch writes the edges' target row: row 1 of the edge list. -/
theorem dst0 : StableHlo.after (hostOps0 (F := Ideal)) W (Proc.devRef .tc main_v3) = dstK (W (Proc.devRef .tc main_arg1)) := by
  after_results_simp; rfl
/-- The first stretch writes the aggregation of the launch features along the edge list. -/
theorem agg0 : StableHlo.after (hostOps0 (F := Ideal)) W (Proc.devRef .tc main_v13)
    = aggK (W (Proc.devRef .tc main_arg1)) (W (Proc.devRef .tc main_arg0)) := by
  after_results_simp
  unfold aggK srcK dstK
  rfl
/-- The first stretch writes layer 0's first weight matrix. -/
theorem w1_0 : StableHlo.after (hostOps0 (F := Ideal)) W (Proc.devRef .tc main_v21) = wK (W (Proc.devRef .tc main_arg2)) 0 := by
  after_results_simp; rfl
/-- The first stretch writes layer 0's first bias as a row [1, 128]: the vector [128] cast back. -/
theorem b1_0 : StableHlo.after (hostOps0 (F := Ideal)) W (Proc.devRef .tc main_v16)
    = shapeCast S1x128 (bK (W (Proc.devRef .tc main_arg3)) 0) shapeCasts_S128_S1x128 := by
  after_results_simp; rfl
/-- The first stretch writes layer 0's second weight matrix. -/
theorem w2_0 : StableHlo.after (hostOps0 (F := Ideal)) W (Proc.devRef .tc main_v23) = wK (W (Proc.devRef .tc main_arg4)) 0 := by
  after_results_simp; rfl
/-- The first stretch writes layer 0's second bias as a row [1, 128]. -/
theorem b2_0 : StableHlo.after (hostOps0 (F := Ideal)) W (Proc.devRef .tc main_v19)
    = shapeCast S1x128 (bK (W (Proc.devRef .tc main_arg5)) 0) shapeCasts_S128_S1x128 := by
  after_results_simp; rfl

end Stretches

/-! ### The later stretches: each reads the edge rows the first stretch wrote, the previous region's result, and the
    stacked parameters; the reads are taken as hypotheses, so each value is stated over what the stretch finds -/

section Stretches

variable (W : Valuation τ sig (Elt Ideal))
variable (ei : (⟨S2x1600000, .i32⟩ : BufTy).Contents (Elt Ideal)) (x : (⟨S100000x128, .f32⟩ : BufTy).Contents (Elt Ideal))
variable (pw : (⟨S4x128x128, .f32⟩ : BufTy).Contents (Elt Ideal)) (pb : (⟨S4x128, .f32⟩ : BufTy).Contents (Elt Ideal))

/-- The second stretch leaves the edges' source row as found. -/
theorem keep1_v1 : StableHlo.after (hostOps1 (F := Ideal)) W (Proc.devRef .tc main_v1) = W (Proc.devRef .tc main_v1) :=
  StableHlo.after_of_forall_not_mem (b := Proc.devRef .tc main_v1) _ _ (by not_written hostOps1)
/-- The second stretch leaves the edges' target row as found. -/
theorem keep1_v3 : StableHlo.after (hostOps1 (F := Ideal)) W (Proc.devRef .tc main_v3) = W (Proc.devRef .tc main_v3) :=
  StableHlo.after_of_forall_not_mem (b := Proc.devRef .tc main_v3) _ _ (by not_written hostOps1)
/-- The second stretch leaves the stacked first weight matrices as found. -/
theorem keep1_arg2 : StableHlo.after (hostOps1 (F := Ideal)) W (Proc.devRef .tc main_arg2) = W (Proc.devRef .tc main_arg2) :=
  StableHlo.after_of_forall_not_mem (b := Proc.devRef .tc main_arg2) _ _ (by not_written hostOps1)
/-- The second stretch leaves the stacked first bias rows as found. -/
theorem keep1_arg3 : StableHlo.after (hostOps1 (F := Ideal)) W (Proc.devRef .tc main_arg3) = W (Proc.devRef .tc main_arg3) :=
  StableHlo.after_of_forall_not_mem (b := Proc.devRef .tc main_arg3) _ _ (by not_written hostOps1)
/-- The second stretch leaves the stacked second weight matrices as found. -/
theorem keep1_arg4 : StableHlo.after (hostOps1 (F := Ideal)) W (Proc.devRef .tc main_arg4) = W (Proc.devRef .tc main_arg4) :=
  StableHlo.after_of_forall_not_mem (b := Proc.devRef .tc main_arg4) _ _ (by not_written hostOps1)
/-- The second stretch leaves the stacked second bias rows as found. -/
theorem keep1_arg5 : StableHlo.after (hostOps1 (F := Ideal)) W (Proc.devRef .tc main_arg5) = W (Proc.devRef .tc main_arg5) :=
  StableHlo.after_of_forall_not_mem (b := Proc.devRef .tc main_arg5) _ _ (by not_written hostOps1)
/-- The second stretch leaves layer 0's result as found. -/
theorem keep1_x : StableHlo.after (hostOps1 (F := Ideal)) W (Proc.devRef .tc main_v24) = W (Proc.devRef .tc main_v24) :=
  StableHlo.after_of_forall_not_mem (b := Proc.devRef .tc main_v24) _ _ (by not_written hostOps1)

/-- The second stretch writes the aggregation of layer 0's result along the edge list. -/
theorem agg1 (hs : W (Proc.devRef .tc main_v1) = srcK ei) (hd : W (Proc.devRef .tc main_v3) = dstK ei)
    (hx : W (Proc.devRef .tc main_v24) = x) :
    StableHlo.after (hostOps1 (F := Ideal)) W (Proc.devRef .tc main_v34) = aggK ei x := by
  after_results_simp
  rw [hs, hd, hx]
  unfold aggK
  rfl
/-- The second stretch writes layer 1's first weight matrix. -/
theorem w1_1 (h : W (Proc.devRef .tc main_arg2) = pw) :
    StableHlo.after (hostOps1 (F := Ideal)) W (Proc.devRef .tc main_v42) = wK pw 1 := by
  after_results_simp; rw [h]; rfl
/-- The second stretch writes layer 1's first bias as a row [1, 128]. -/
theorem b1_1 (h : W (Proc.devRef .tc main_arg3) = pb) :
    StableHlo.after (hostOps1 (F := Ideal)) W (Proc.devRef .tc main_v37) = shapeCast S1x128 (bK pb 1) shapeCasts_S128_S1x128 := by
  after_results_simp; rw [h]; rfl
/-- The second stretch writes layer 1's second weight matrix. -/
theorem w2_1 (h : W (Proc.devRef .tc main_arg4) = pw) :
    StableHlo.after (hostOps1 (F := Ideal)) W (Proc.devRef .tc main_v44) = wK pw 1 := by
  after_results_simp; rw [h]; rfl
/-- The second stretch writes layer 1's second bias as a row [1, 128]. -/
theorem b2_1 (h : W (Proc.devRef .tc main_arg5) = pb) :
    StableHlo.after (hostOps1 (F := Ideal)) W (Proc.devRef .tc main_v40) = shapeCast S1x128 (bK pb 1) shapeCasts_S128_S1x128 := by
  after_results_simp; rw [h]; rfl

/-- The third stretch leaves the edges' source row as found. -/
theorem keep2_v1 : StableHlo.after (hostOps2 (F := Ideal)) W (Proc.devRef .tc main_v1) = W (Proc.devRef .tc main_v1) :=
  StableHlo.after_of_forall_not_mem (b := Proc.devRef .tc main_v1) _ _ (by not_written hostOps2)
/-- The third stretch leaves the edges' target row as found. -/
theorem keep2_v3 : StableHlo.after (hostOps2 (F := Ideal)) W (Proc.devRef .tc main_v3) = W (Proc.devRef .tc main_v3) :=
  StableHlo.after_of_forall_not_mem (b := Proc.devRef .tc main_v3) _ _ (by not_written hostOps2)
/-- The third stretch leaves the stacked first weight matrices as found. -/
theorem keep2_arg2 : StableHlo.after (hostOps2 (F := Ideal)) W (Proc.devRef .tc main_arg2) = W (Proc.devRef .tc main_arg2) :=
  StableHlo.after_of_forall_not_mem (b := Proc.devRef .tc main_arg2) _ _ (by not_written hostOps2)
/-- The third stretch leaves the stacked first bias rows as found. -/
theorem keep2_arg3 : StableHlo.after (hostOps2 (F := Ideal)) W (Proc.devRef .tc main_arg3) = W (Proc.devRef .tc main_arg3) :=
  StableHlo.after_of_forall_not_mem (b := Proc.devRef .tc main_arg3) _ _ (by not_written hostOps2)
/-- The third stretch leaves the stacked second weight matrices as found. -/
theorem keep2_arg4 : StableHlo.after (hostOps2 (F := Ideal)) W (Proc.devRef .tc main_arg4) = W (Proc.devRef .tc main_arg4) :=
  StableHlo.after_of_forall_not_mem (b := Proc.devRef .tc main_arg4) _ _ (by not_written hostOps2)
/-- The third stretch leaves the stacked second bias rows as found. -/
theorem keep2_arg5 : StableHlo.after (hostOps2 (F := Ideal)) W (Proc.devRef .tc main_arg5) = W (Proc.devRef .tc main_arg5) :=
  StableHlo.after_of_forall_not_mem (b := Proc.devRef .tc main_arg5) _ _ (by not_written hostOps2)
/-- The third stretch leaves layer 1's result as found. -/
theorem keep2_x : StableHlo.after (hostOps2 (F := Ideal)) W (Proc.devRef .tc main_v45) = W (Proc.devRef .tc main_v45) :=
  StableHlo.after_of_forall_not_mem (b := Proc.devRef .tc main_v45) _ _ (by not_written hostOps2)

/-- The third stretch writes the aggregation of layer 1's result along the edge list. -/
theorem agg2 (hs : W (Proc.devRef .tc main_v1) = srcK ei) (hd : W (Proc.devRef .tc main_v3) = dstK ei)
    (hx : W (Proc.devRef .tc main_v45) = x) :
    StableHlo.after (hostOps2 (F := Ideal)) W (Proc.devRef .tc main_v55) = aggK ei x := by
  after_results_simp
  rw [hs, hd, hx]
  unfold aggK
  rfl
/-- The third stretch writes layer 2's first weight matrix. -/
theorem w1_2 (h : W (Proc.devRef .tc main_arg2) = pw) :
    StableHlo.after (hostOps2 (F := Ideal)) W (Proc.devRef .tc main_v63) = wK pw 2 := by
  after_results_simp; rw [h]; rfl
/-- The third stretch writes layer 2's first bias as a row [1, 128]. -/
theorem b1_2 (h : W (Proc.devRef .tc main_arg3) = pb) :
    StableHlo.after (hostOps2 (F := Ideal)) W (Proc.devRef .tc main_v58) = shapeCast S1x128 (bK pb 2) shapeCasts_S128_S1x128 := by
  after_results_simp; rw [h]; rfl
/-- The third stretch writes layer 2's second weight matrix. -/
theorem w2_2 (h : W (Proc.devRef .tc main_arg4) = pw) :
    StableHlo.after (hostOps2 (F := Ideal)) W (Proc.devRef .tc main_v65) = wK pw 2 := by
  after_results_simp; rw [h]; rfl
/-- The third stretch writes layer 2's second bias as a row [1, 128]. -/
theorem b2_2 (h : W (Proc.devRef .tc main_arg5) = pb) :
    StableHlo.after (hostOps2 (F := Ideal)) W (Proc.devRef .tc main_v61) = shapeCast S1x128 (bK pb 2) shapeCasts_S128_S1x128 := by
  after_results_simp; rw [h]; rfl

/-- The fourth stretch leaves layer 2's result as found. -/
theorem keep3_x : StableHlo.after (hostOps3 (F := Ideal)) W (Proc.devRef .tc main_v66) = W (Proc.devRef .tc main_v66) :=
  StableHlo.after_of_forall_not_mem (b := Proc.devRef .tc main_v66) _ _ (by not_written hostOps3)

/-- The fourth stretch writes the aggregation of layer 2's result along the edge list. -/
theorem agg3 (hs : W (Proc.devRef .tc main_v1) = srcK ei) (hd : W (Proc.devRef .tc main_v3) = dstK ei)
    (hx : W (Proc.devRef .tc main_v66) = x) :
    StableHlo.after (hostOps3 (F := Ideal)) W (Proc.devRef .tc main_v76) = aggK ei x := by
  after_results_simp
  rw [hs, hd, hx]
  unfold aggK
  rfl
/-- The fourth stretch writes layer 3's first weight matrix. -/
theorem w1_3 (h : W (Proc.devRef .tc main_arg2) = pw) :
    StableHlo.after (hostOps3 (F := Ideal)) W (Proc.devRef .tc main_v84) = wK pw 3 := by
  after_results_simp; rw [h]; rfl
/-- The fourth stretch writes layer 3's first bias as a row [1, 128]. -/
theorem b1_3 (h : W (Proc.devRef .tc main_arg3) = pb) :
    StableHlo.after (hostOps3 (F := Ideal)) W (Proc.devRef .tc main_v79) = shapeCast S1x128 (bK pb 3) shapeCasts_S128_S1x128 := by
  after_results_simp; rw [h]; rfl
/-- The fourth stretch writes layer 3's second weight matrix. -/
theorem w2_3 (h : W (Proc.devRef .tc main_arg4) = pw) :
    StableHlo.after (hostOps3 (F := Ideal)) W (Proc.devRef .tc main_v86) = wK pw 3 := by
  after_results_simp; rw [h]; rfl
/-- The fourth stretch writes layer 3's second bias as a row [1, 128]. -/
theorem b2_3 (h : W (Proc.devRef .tc main_arg5) = pb) :
    StableHlo.after (hostOps3 (F := Ideal)) W (Proc.devRef .tc main_v82) = shapeCast S1x128 (bK pb 3) shapeCasts_S128_S1x128 := by
  after_results_simp; rw [h]; rfl

end Stretches

/-! ## A bias row read at its column -/

/-- A vector [128] cast to a row [1, 128] reads, at (0, k), the vector at k. -/
theorem row_at (v : (⟨S128, .f32⟩ : BufTy).Contents (Elt Ideal)) (k : Fin 128) :
    shapeCast S1x128 v shapeCasts_S128_S1x128 (ix2 0 k) = v (ix1 k) :=
  shapeCast_a_1a_apply v shapeCasts_S128_S1x128 0 k

/-- A layer of equal arguments: the features, the aggregation, the weight matrices, and the bias rows read at their
    columns. -/
theorem layer_congr {x x' agg agg' : Cert.GinSpec.SX.Idx → EReal} {w1 w1' w2 w2' : Cert.GinSpec.SW.Idx → EReal}
    {b1 b1' b2 b2' : Fin 128 → EReal} (hx : x = x') (ha : agg = agg') (hw1 : w1 = w1') (hb1 : ∀ k, b1 k = b1' k)
    (hw2 : w2 = w2') (hb2 : ∀ k, b2 k = b2' k) :
    Cert.GinSpec.layer x agg w1 b1 w2 b2 = Cert.GinSpec.layer x' agg' w1' b1' w2' b2' := by
  obtain rfl : b1 = b1' := funext hb1
  obtain rfl : b2 = b2' := funext hb2
  subst hx ha hw1 hw2
  rfl

/-! ## What every later stretch reads besides the previous region's result -/

/-- The contents W hold the edge list's rows and the four stacked parameters. The first stretch establishes it; no later
    stretch and no region writes any of the six buffers. -/
structure Carried (W : Valuation τ sig (Elt Ideal)) (ei : (⟨S2x1600000, .i32⟩ : BufTy).Contents (Elt Ideal))
    (p2 : (⟨S4x128x128, .f32⟩ : BufTy).Contents (Elt Ideal)) (p3 : (⟨S4x128, .f32⟩ : BufTy).Contents (Elt Ideal))
    (p4 : (⟨S4x128x128, .f32⟩ : BufTy).Contents (Elt Ideal)) (p5 : (⟨S4x128, .f32⟩ : BufTy).Contents (Elt Ideal)) : Prop where
  src : W (Proc.devRef .tc main_v1) = srcK ei
  dst : W (Proc.devRef .tc main_v3) = dstK ei
  a2 : W (Proc.devRef .tc main_arg2) = p2
  a3 : W (Proc.devRef .tc main_arg3) = p3
  a4 : W (Proc.devRef .tc main_arg4) = p4
  a5 : W (Proc.devRef .tc main_arg5) = p5

section Carry

variable {W : Valuation τ sig (Elt Ideal)} {ei : (⟨S2x1600000, .i32⟩ : BufTy).Contents (Elt Ideal)}
  {p2 : (⟨S4x128x128, .f32⟩ : BufTy).Contents (Elt Ideal)} {p3 : (⟨S4x128, .f32⟩ : BufTy).Contents (Elt Ideal)}
  {p4 : (⟨S4x128x128, .f32⟩ : BufTy).Contents (Elt Ideal)} {p5 : (⟨S4x128, .f32⟩ : BufTy).Contents (Elt Ideal)}

/-- After the first stretch the edge rows are the rows of the edge list found, and the parameters are as found. -/
theorem carried_host0 (W : Valuation τ sig (Elt Ideal)) :
    Carried (StableHlo.after (hostOps0 (F := Ideal)) W) (W (Proc.devRef .tc main_arg1)) (W (Proc.devRef .tc main_arg2))
      (W (Proc.devRef .tc main_arg3)) (W (Proc.devRef .tc main_arg4)) (W (Proc.devRef .tc main_arg5)) :=
  ⟨src0 W, dst0 W, keep0_arg2 W, keep0_arg3 W, keep0_arg4 W, keep0_arg5 W⟩

/-- The second stretch writes none of the six. -/
theorem Carried.host1 (h : Carried W ei p2 p3 p4 p5) : Carried (StableHlo.after (hostOps1 (F := Ideal)) W) ei p2 p3 p4 p5 :=
  ⟨(keep1_v1 W).trans h.src, (keep1_v3 W).trans h.dst, (keep1_arg2 W).trans h.a2, (keep1_arg3 W).trans h.a3,
    (keep1_arg4 W).trans h.a4, (keep1_arg5 W).trans h.a5⟩

/-- The third stretch writes none of the six. -/
theorem Carried.host2 (h : Carried W ei p2 p3 p4 p5) : Carried (StableHlo.after (hostOps2 (F := Ideal)) W) ei p2 p3 p4 p5 :=
  ⟨(keep2_v1 W).trans h.src, (keep2_v3 W).trans h.dst, (keep2_arg2 W).trans h.a2, (keep2_arg3 W).trans h.a3,
    (keep2_arg4 W).trans h.a4, (keep2_arg5 W).trans h.a5⟩

end Carry

/-! ## The regions, one by one -/

section Regions

variable (m : (ℓ : Loc nD τ sig) → Buf (Elt Ideal) ℓ) (ρ : Dev nD → PrngReg) (c : Dev nD)
variable {ei : (⟨S2x1600000, .i32⟩ : BufTy).Contents (Elt Ideal)}
  {p2 : (⟨S4x128x128, .f32⟩ : BufTy).Contents (Elt Ideal)} {p3 : (⟨S4x128, .f32⟩ : BufTy).Contents (Elt Ideal)}
  {p4 : (⟨S4x128x128, .f32⟩ : BufTy).Contents (Elt Ideal)} {p5 : (⟨S4x128, .f32⟩ : BufTy).Contents (Elt Ideal)}
  {x : (⟨S100000x128, .f32⟩ : BufTy).Contents (Elt Ideal)}

/-- None of the six is an array of region 0's windows. -/
theorem Carried.region0 (h : Carried (W1 (F := Ideal) m ρ c) ei p2 p3 p4 p5) : Carried (W2 (F := Ideal) m ρ c) ei p2 p3 p4 p5 :=
  ⟨(W2_of_ne m ρ c main_v1 (by decide)).trans h.src, (W2_of_ne m ρ c main_v3 (by decide)).trans h.dst,
    (W2_of_ne m ρ c main_arg2 (by decide)).trans h.a2, (W2_of_ne m ρ c main_arg3 (by decide)).trans h.a3,
    (W2_of_ne m ρ c main_arg4 (by decide)).trans h.a4, (W2_of_ne m ρ c main_arg5 (by decide)).trans h.a5⟩

/-- None of the six is an array of region 1's windows. -/
theorem Carried.region1 (h : Carried (W3 (F := Ideal) m ρ c) ei p2 p3 p4 p5) : Carried (W4 (F := Ideal) m ρ c) ei p2 p3 p4 p5 :=
  ⟨(W4_of_ne m ρ c main_v1 (by decide)).trans h.src, (W4_of_ne m ρ c main_v3 (by decide)).trans h.dst,
    (W4_of_ne m ρ c main_arg2 (by decide)).trans h.a2, (W4_of_ne m ρ c main_arg3 (by decide)).trans h.a3,
    (W4_of_ne m ρ c main_arg4 (by decide)).trans h.a4, (W4_of_ne m ρ c main_arg5 (by decide)).trans h.a5⟩

/-- None of the six is an array of region 2's windows. -/
theorem Carried.region2 (h : Carried (W5 (F := Ideal) m ρ c) ei p2 p3 p4 p5) : Carried (W6 (F := Ideal) m ρ c) ei p2 p3 p4 p5 :=
  ⟨(W6_of_ne m ρ c main_v1 (by decide)).trans h.src, (W6_of_ne m ρ c main_v3 (by decide)).trans h.dst,
    (W6_of_ne m ρ c main_arg2 (by decide)).trans h.a2, (W6_of_ne m ρ c main_arg3 (by decide)).trans h.a3,
    (W6_of_ne m ρ c main_arg4 (by decide)).trans h.a4, (W6_of_ne m ρ c main_arg5 (by decide)).trans h.a5⟩

/-- Layer l of the network over an edge list and stacked parameters: GinSpec.step with the host aggregation. -/
def stepK (ei : (⟨S2x1600000, .i32⟩ : BufTy).Contents (Elt Ideal))
    (p2 : (⟨S4x128x128, .f32⟩ : BufTy).Contents (Elt Ideal)) (p3 : (⟨S4x128, .f32⟩ : BufTy).Contents (Elt Ideal))
    (p4 : (⟨S4x128x128, .f32⟩ : BufTy).Contents (Elt Ideal)) (p5 : (⟨S4x128, .f32⟩ : BufTy).Contents (Elt Ideal))
    (l : Fin 4) (x : (⟨S100000x128, .f32⟩ : BufTy).Contents (Elt Ideal)) : (⟨S100000x128, .f32⟩ : BufTy).Contents (Elt Ideal) :=
  Cert.GinSpec.step (aggK ei) (wK p2) (fun l k => bK p3 l (ix1 k)) (wK p4) (fun l k => bK p5 l (ix1 k)) l x

/-- Region 0 leaves layer 0 of the launch features at its result buffer. -/
theorem res0 : W2 (F := Ideal) m ρ c (Proc.devRef .tc main_v24)
    = stepK (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) 0 (m ((c.tc : Thread nD τ).loc main_arg0)) := by
  refine (W2_arr m ρ c 6).trans ((Region.region0_final (V1 m ρ) c).trans ?_)
  have e0 : V1 (F := Ideal) m ρ c main_arg0 = m ((c.tc : Thread nD τ).loc main_arg0) := keep0_arg0 (W0 m ρ c)
  have e1 : V1 (F := Ideal) m ρ c main_v13
      = aggK (m ((c.tc : Thread nD τ).loc main_arg1)) (m ((c.tc : Thread nD τ).loc main_arg0)) := agg0 (W0 m ρ c)
  have e2 : V1 (F := Ideal) m ρ c main_v21 = wK (m ((c.tc : Thread nD τ).loc main_arg2)) 0 := w1_0 (W0 m ρ c)
  have e3 : V1 (F := Ideal) m ρ c main_v16
      = shapeCast S1x128 (bK (m ((c.tc : Thread nD τ).loc main_arg3)) 0) shapeCasts_S128_S1x128 := b1_0 (W0 m ρ c)
  have e4 : V1 (F := Ideal) m ρ c main_v23 = wK (m ((c.tc : Thread nD τ).loc main_arg4)) 0 := w2_0 (W0 m ρ c)
  have e5 : V1 (F := Ideal) m ρ c main_v19
      = shapeCast S1x128 (bK (m ((c.tc : Thread nD τ).loc main_arg5)) 0) shapeCasts_S128_S1x128 := b2_0 (W0 m ρ c)
  unfold stepK Cert.GinSpec.step
  exact layer_congr e0 e1 e2 (fun k => (congrFun e3 (ix2 0 k)).trans (row_at _ k)) e4
    (fun k => (congrFun e5 (ix2 0 k)).trans (row_at _ k))

/-- Region 1 leaves layer 1 of what it finds at region 0's result buffer. -/
theorem res1 (h : Carried (W2 (F := Ideal) m ρ c) ei p2 p3 p4 p5) (hx : W2 (F := Ideal) m ρ c (Proc.devRef .tc main_v24) = x) :
    W4 (F := Ideal) m ρ c (Proc.devRef .tc main_v45) = stepK ei p2 p3 p4 p5 1 x := by
  refine (W4_arr m ρ c 6).trans ((Region.region1_final (V3 m ρ) c).trans ?_)
  have e0 : V3 (F := Ideal) m ρ c main_v24 = x := (keep1_x (W2 m ρ c)).trans hx
  have e1 : V3 (F := Ideal) m ρ c main_v34 = aggK ei x := agg1 (W2 m ρ c) ei x h.src h.dst hx
  have e2 : V3 (F := Ideal) m ρ c main_v42 = wK p2 1 := w1_1 (W2 m ρ c) p2 h.a2
  have e3 : V3 (F := Ideal) m ρ c main_v37 = shapeCast S1x128 (bK p3 1) shapeCasts_S128_S1x128 := b1_1 (W2 m ρ c) p3 h.a3
  have e4 : V3 (F := Ideal) m ρ c main_v44 = wK p4 1 := w2_1 (W2 m ρ c) p4 h.a4
  have e5 : V3 (F := Ideal) m ρ c main_v40 = shapeCast S1x128 (bK p5 1) shapeCasts_S128_S1x128 := b2_1 (W2 m ρ c) p5 h.a5
  unfold stepK Cert.GinSpec.step
  exact layer_congr e0 e1 e2 (fun k => (congrFun e3 (ix2 0 k)).trans (row_at _ k)) e4
    (fun k => (congrFun e5 (ix2 0 k)).trans (row_at _ k))

/-- Region 2 leaves layer 2 of what it finds at region 1's result buffer. -/
theorem res2 (h : Carried (W4 (F := Ideal) m ρ c) ei p2 p3 p4 p5) (hx : W4 (F := Ideal) m ρ c (Proc.devRef .tc main_v45) = x) :
    W6 (F := Ideal) m ρ c (Proc.devRef .tc main_v66) = stepK ei p2 p3 p4 p5 2 x := by
  refine (W6_arr m ρ c 6).trans ((Region.region2_final (V5 m ρ) c).trans ?_)
  have e0 : V5 (F := Ideal) m ρ c main_v45 = x := (keep2_x (W4 m ρ c)).trans hx
  have e1 : V5 (F := Ideal) m ρ c main_v55 = aggK ei x := agg2 (W4 m ρ c) ei x h.src h.dst hx
  have e2 : V5 (F := Ideal) m ρ c main_v63 = wK p2 2 := w1_2 (W4 m ρ c) p2 h.a2
  have e3 : V5 (F := Ideal) m ρ c main_v58 = shapeCast S1x128 (bK p3 2) shapeCasts_S128_S1x128 := b1_2 (W4 m ρ c) p3 h.a3
  have e4 : V5 (F := Ideal) m ρ c main_v65 = wK p4 2 := w2_2 (W4 m ρ c) p4 h.a4
  have e5 : V5 (F := Ideal) m ρ c main_v61 = shapeCast S1x128 (bK p5 2) shapeCasts_S128_S1x128 := b2_2 (W4 m ρ c) p5 h.a5
  unfold stepK Cert.GinSpec.step
  exact layer_congr e0 e1 e2 (fun k => (congrFun e3 (ix2 0 k)).trans (row_at _ k)) e4
    (fun k => (congrFun e5 (ix2 0 k)).trans (row_at _ k))

/-- Region 3 leaves layer 3 of what it finds at region 2's result buffer. -/
theorem res3 (h : Carried (W6 (F := Ideal) m ρ c) ei p2 p3 p4 p5) (hx : W6 (F := Ideal) m ρ c (Proc.devRef .tc main_v66) = x) :
    W8 (F := Ideal) m ρ c (Proc.devRef .tc main_v87) = stepK ei p2 p3 p4 p5 3 x := by
  refine (W8_arr m ρ c 6).trans ((Region.region3_final (V7 m ρ) c).trans ?_)
  have e0 : V7 (F := Ideal) m ρ c main_v66 = x := (keep3_x (W6 m ρ c)).trans hx
  have e1 : V7 (F := Ideal) m ρ c main_v76 = aggK ei x := agg3 (W6 m ρ c) ei x h.src h.dst hx
  have e2 : V7 (F := Ideal) m ρ c main_v84 = wK p2 3 := w1_3 (W6 m ρ c) p2 h.a2
  have e3 : V7 (F := Ideal) m ρ c main_v79 = shapeCast S1x128 (bK p3 3) shapeCasts_S128_S1x128 := b1_3 (W6 m ρ c) p3 h.a3
  have e4 : V7 (F := Ideal) m ρ c main_v86 = wK p4 3 := w2_3 (W6 m ρ c) p4 h.a4
  have e5 : V7 (F := Ideal) m ρ c main_v82 = shapeCast S1x128 (bK p5 3) shapeCasts_S128_S1x128 := b2_3 (W6 m ρ c) p5 h.a5
  unfold stepK Cert.GinSpec.step
  exact layer_congr e0 e1 e2 (fun k => (congrFun e3 (ix2 0 k)).trans (row_at _ k)) e4
    (fun k => (congrFun e5 (ix2 0 k)).trans (row_at _ k))

end Regions

/-- The result buffer at the last boundary is the network of the launch arrays. -/
theorem kernel_value (m : (ℓ : Loc nD τ sig) → Buf (Elt Ideal) ℓ) (ρ : Dev nD → PrngReg) (c : Dev nD) :
    W8 (F := Ideal) m ρ c (Proc.devRef .tc main_v87)
      = Cert.GinSpec.net (aggK (m ((c.tc : Thread nD τ).loc main_arg1)))
          (wK (m ((c.tc : Thread nD τ).loc main_arg2))) (fun l k => bK (m ((c.tc : Thread nD τ).loc main_arg3)) l (ix1 k))
          (wK (m ((c.tc : Thread nD τ).loc main_arg4))) (fun l k => bK (m ((c.tc : Thread nD τ).loc main_arg5)) l (ix1 k))
          (m ((c.tc : Thread nD τ).loc main_arg0)) := by
  have h1 : Carried (W1 (F := Ideal) m ρ c) (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) := carried_host0 (W0 m ρ c)
  have h2 := h1.region0 m ρ c
  have h4 := (h2.host1).region1 m ρ c
  have h6 := (h4.host2).region2 m ρ c
  exact res3 m ρ c h6 (res2 m ρ c h4 (res1 m ρ c h2 (res0 m ρ c)))

end Cert.KernelIdeal.KNet

end
-- ==== Proof.RefNet.lean ====
/-
  The idealized reference's result as the four-layer network of its argument arrays.

  The reference applies, four times, to the current features x: the aggregation of x (gather the source rows, scatter-add
  at the target rows), agg + 1 * x, a matrix product with layer l's first weight matrix plus its bias row, relu, a second
  matrix product plus bias, relu, and the residual sum with x. Read at row r and column q, with each host matrix product
  the sum over the contracted column, this is the layer function of the specification; the aggregation of layer l + 1 is
  the same chain of operations as layer 0's, applied to layer l's result.
-/
import proofs.«123225_j53609781789214_1_alg».proof.Proof.Gen.ReferenceIdeal.Read
import proofs.«123225_j53609781789214_1_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefNet

open Idealize.ShloMosaic Idealize.ShloMosaic.ValueIdx Cert.ReferenceIdeal Cert.ReferenceIdeal.Gen Cert.ReferenceIdeal.Read

/-- Layer l's first weight matrix, as the reference cuts it out of the stacked parameter. -/
def w1R (x2 : (⟨S4x128x128, .f32⟩ : BufTy).Contents (Elt Ideal)) : Fin 4 → (⟨S128x128, .f32⟩ : BufTy).Contents (Elt Ideal)
  | 0 => val_main_v18 (F := Ideal) x2
  | 1 => val_main_v50 (F := Ideal) x2
  | 2 => val_main_v82 (F := Ideal) x2
  | 3 => val_main_v114 (F := Ideal) x2

/-- Layer l's first bias row, as a vector [128]. -/
def b1R (x3 : (⟨S4x128, .f32⟩ : BufTy).Contents (Elt Ideal)) : Fin 4 → (⟨S128, .f32⟩ : BufTy).Contents (Elt Ideal)
  | 0 => val_main_v21 (F := Ideal) x3
  | 1 => val_main_v53 (F := Ideal) x3
  | 2 => val_main_v85 (F := Ideal) x3
  | 3 => val_main_v117 (F := Ideal) x3

/-- Layer l's second weight matrix. -/
def w2R (x4 : (⟨S4x128x128, .f32⟩ : BufTy).Contents (Elt Ideal)) : Fin 4 → (⟨S128x128, .f32⟩ : BufTy).Contents (Elt Ideal)
  | 0 => val_main_v27 (F := Ideal) x4
  | 1 => val_main_v59 (F := Ideal) x4
  | 2 => val_main_v91 (F := Ideal) x4
  | 3 => val_main_v123 (F := Ideal) x4

/-- Layer l's second bias row, as a vector [128]. -/
def b2R (x5 : (⟨S4x128, .f32⟩ : BufTy).Contents (Elt Ideal)) : Fin 4 → (⟨S128, .f32⟩ : BufTy).Contents (Elt Ideal)
  | 0 => val_main_v30 (F := Ideal) x5
  | 1 => val_main_v62 (F := Ideal) x5
  | 2 => val_main_v94 (F := Ideal) x5
  | 3 => val_main_v126 (F := Ideal) x5

/-- A host matrix product [100000,128] x [128,128] at row r, column q: the sum over the contracted column. -/
theorem dot_at (y0 : FVec Ideal S100000x128 .f32) (y1 : FVec Ideal S128x128 .f32)
    (r : Fin 100000) (q : Fin 128) :
    Host.dotGeneral (F := Ideal) dot_S100000x128_S128x128_S100000x128_1_0_0_1_n_n none y0 y1 (ix2 r q)
      = ∑ k : Fin 128, y0 (ix2 r k) * y1 (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact lhs_main_v19_0 _ _
    | ⟨1, _⟩ => exact (lhs_main_v19_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (rhs_main_v19_0 _ _).trans hk
    | ⟨1, _⟩ => exact rhs_main_v19_1 _ _)
  rw [el, er]

/-- A bias vector [128] broadcast to [1,128] and then to [100000,128], at row r, column q. -/
theorem bias_at (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  rw [broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- A scalar constant broadcast to [100000,128], at any index. -/
theorem const_at (w : BitVec 32) (i : S100000x128.Idx) :
    broadcastInDim S100000x128 ![] bcast_S_S100000x128 (constant (F := Ideal) S_ .f32 w) i = Ideal.ofBits .f32 w :=
  broadcastInDim_apply _ bcast_S_S100000x128 (constant (F := Ideal) S_ .f32 w) i (fun a => a.elim0) (fun a => a.elim0)

/-- The host operations of one layer on arbitrary arrays: the features x, the aggregated features agg, the two weight
    matrices and the two bias vectors. -/
def layerOps (x agg : FVec Ideal S100000x128 .f32) (w1 : FVec Ideal S128x128 .f32) (b1 : FVec Ideal S128 .f32)
    (w2 : FVec Ideal S128x128 .f32) (b2 : FVec Ideal S128 .f32) : FVec Ideal S100000x128 .f32 :=
  addf x (maximumf
    (addf
      (Host.dotGeneral (F := Ideal) dot_S100000x128_S128x128_S100000x128_1_0_0_1_n_n none
        (maximumf
          (addf
            (Host.dotGeneral (F := Ideal) dot_S100000x128_S128x128_S100000x128_1_0_0_1_n_n none
              (addf agg (mulf (broadcastInDim S100000x128 ![] bcast_S_S100000x128 (constant (F := Ideal) S_ .f32 0x3F800000#32)) x))
              w1)
            (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32)))
        w2)
      (broadcastInDim S100000x128 ![0, 1] bcast_S1x128_S100000x128_0_1 (broadcastInDim S1x128 ![1] bcast_S128_S1x128_1 b2)))
    (broadcastInDim S100000x128 ![] bcast_S_S100000x128 (constant (F := Ideal) S_ .f32 0x00000000#32)))

/-- The host operations of one layer are the layer function of the specification: at row r and column q each matrix
    product is the sum over the contracted column, each bias is read at its column, the constants are the words one and zero. -/
theorem layerOps_eq (x agg : FVec Ideal S100000x128 .f32) (w1 : FVec Ideal S128x128 .f32) (b1 : FVec Ideal S128 .f32)
    (w2 : FVec Ideal S128x128 .f32) (b2 : FVec Ideal S128 .f32) :
    layerOps x agg w1 b1 w2 b2 = Cert.GinSpec.layer x agg w1 (fun k => b1 (ix1 k)) w2 (fun k => b2 (ix1 k)) := by
  funext i
  obtain ⟨r, q, rfl⟩ : ∃ (r : Fin 100000) (q : Fin 128), i = ix2 r q := ⟨i 0, i 1, eq_ix2 i⟩
  rw [Cert.GinSpec.layer_ix2]
  unfold layerOps Cert.GinSpec.layerAt Cert.GinSpec.rowOut Cert.GinSpec.hidden
  rw [addf_apply, maximumf_apply, addf_apply, dot_at, bias_at, const_at]
  refine congrArg (fun s => x (ix2 r q) + max (s + b2 (ix1 q)) (Ideal.ofBits .f32 0x00000000#32))
    (Finset.sum_congr rfl fun k _ => ?_)
  rw [maximumf_apply, addf_apply, dot_at, bias_at, const_at]
  refine congrArg (fun s => max (s + b1 (ix1 k)) (Ideal.ofBits .f32 0x00000000#32) * w2 (ix2 k q))
    (Finset.sum_congr rfl fun j _ => ?_)
  rw [addf_apply, mulf_apply, const_at]

/-- The first layer's result is the layer operations applied to the argument features, their aggregation, and the first
    weight matrices and bias vectors. -/
theorem layer0_ops (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v35 (F := Ideal) x0 x1 x2 x3 x4 x5
      = layerOps x0 (val_main_v13 (F := Ideal) x0 x1) (val_main_v18 (F := Ideal) x2) (val_main_v21 (F := Ideal) x3)
          (val_main_v27 (F := Ideal) x4) (val_main_v30 (F := Ideal) x5) := by
  unfold val_main_v35 val_main_v34 val_main_v33 val_main_v28 val_main_v25 val_main_v24 val_main_v19 val_main_v16
    val_main_v15 val_main_v14 val_main_cst_1 val_main_v23 val_main_v22 val_main_call0_v0 val_main_call0_cst
    val_main_v32 val_main_v31 val_main_call1_v0 val_main_call1_cst layerOps
  rfl

/-- The second layer's result is the layer operations applied to the first layer's result and its aggregation. -/
theorem layer1_ops (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v67 (F := Ideal) x0 x1 x2 x3 x4 x5
      = layerOps (val_main_v35 (F := Ideal) x0 x1 x2 x3 x4 x5) (val_main_v45 (F := Ideal) x0 x1 x2 x3 x4 x5) (val_main_v50 (F := Ideal) x2) (val_main_v53 (F := Ideal) x3)
          (val_main_v59 (F := Ideal) x4) (val_main_v62 (F := Ideal) x5) := by
  unfold val_main_v67 val_main_v66 val_main_v65 val_main_v60 val_main_v57 val_main_v56 val_main_v51 val_main_v48
    val_main_v47 val_main_v46 val_main_cst_5 val_main_v55 val_main_v54 val_main_call2_v0 val_main_call2_cst
    val_main_v64 val_main_v63 val_main_call3_v0 val_main_call3_cst layerOps
  rfl

/-- The third layer's result is the layer operations applied to the second layer's result and its aggregation. -/
theorem layer2_ops (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v99 (F := Ideal) x0 x1 x2 x3 x4 x5
      = layerOps (val_main_v67 (F := Ideal) x0 x1 x2 x3 x4 x5) (val_main_v77 (F := Ideal) x0 x1 x2 x3 x4 x5) (val_main_v82 (F := Ideal) x2) (val_main_v85 (F := Ideal) x3)
          (val_main_v91 (F := Ideal) x4) (val_main_v94 (F := Ideal) x5) := by
  unfold val_main_v99 val_main_v98 val_main_v97 val_main_v92 val_main_v89 val_main_v88 val_main_v83 val_main_v80
    val_main_v79 val_main_v78 val_main_cst_9 val_main_v87 val_main_v86 val_main_call4_v0 val_main_call4_cst
    val_main_v96 val_main_v95 val_main_call5_v0 val_main_call5_cst layerOps
  rfl

/-- The fourth layer's result is the layer operations applied to the third layer's result and its aggregation. -/
theorem layer3_ops (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v131 (F := Ideal) x0 x1 x2 x3 x4 x5
      = layerOps (val_main_v99 (F := Ideal) x0 x1 x2 x3 x4 x5) (val_main_v109 (F := Ideal) x0 x1 x2 x3 x4 x5) (val_main_v114 (F := Ideal) x2) (val_main_v117 (F := Ideal) x3)
          (val_main_v123 (F := Ideal) x4) (val_main_v126 (F := Ideal) x5) := by
  unfold val_main_v131 val_main_v130 val_main_v129 val_main_v124 val_main_v121 val_main_v120 val_main_v115
    val_main_v112 val_main_v111 val_main_v110 val_main_cst_13 val_main_v119 val_main_v118 val_main_call6_v0
    val_main_call6_cst val_main_v128 val_main_v127 val_main_call7_v0 val_main_call7_cst layerOps
  rfl

/-- The second layer's aggregation is the first layer's chain of gather and scatter-add, with the same source and target
    index columns and the same zero array, applied to the first layer's result. -/
theorem agg1_eq (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v45 (F := Ideal) x0 x1 x2 x3 x4 x5 = val_main_v13 (F := Ideal) (val_main_v35 (F := Ideal) x0 x1 x2 x3 x4 x5) x1 := by
  unfold val_main_v45 val_main_v13 val_main_v42 val_main_v10 val_main_v41 val_main_v9 val_main_v40 val_main_v8
    val_main_v37 val_main_v5 val_main_v39 val_main_v7 val_main_v36 val_main_v4 val_main_v38 val_main_v6 val_main_c_2
    val_main_c val_main_c_3 val_main_c_0 val_main_v43 val_main_v11 val_main_cst_4 val_main_cst val_main_v44
    val_main_v12
  rfl

/-- The third layer's aggregation is the same chain applied to the second layer's result. -/
theorem agg2_eq (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v77 (F := Ideal) x0 x1 x2 x3 x4 x5 = val_main_v13 (F := Ideal) (val_main_v67 (F := Ideal) x0 x1 x2 x3 x4 x5) x1 := by
  unfold val_main_v77 val_main_v13 val_main_v74 val_main_v10 val_main_v73 val_main_v9 val_main_v72 val_main_v8
    val_main_v69 val_main_v5 val_main_v71 val_main_v7 val_main_v68 val_main_v4 val_main_v70 val_main_v6 val_main_c_6
    val_main_c val_main_c_7 val_main_c_0 val_main_v75 val_main_v11 val_main_cst_8 val_main_cst val_main_v76
    val_main_v12
  rfl

/-- The fourth layer's aggregation is the same chain applied to the third layer's result. -/
theorem agg3_eq (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v109 (F := Ideal) x0 x1 x2 x3 x4 x5 = val_main_v13 (F := Ideal) (val_main_v99 (F := Ideal) x0 x1 x2 x3 x4 x5) x1 := by
  unfold val_main_v109 val_main_v13 val_main_v106 val_main_v10 val_main_v105 val_main_v9 val_main_v104 val_main_v8
    val_main_v101 val_main_v5 val_main_v103 val_main_v7 val_main_v100 val_main_v4 val_main_v102 val_main_v6
    val_main_c_10 val_main_c val_main_c_11 val_main_c_0 val_main_v107 val_main_v11 val_main_cst_12 val_main_cst
    val_main_v108 val_main_v12
  rfl

/-- The reference's result is the network of its arguments, the aggregation being layer 0's chain of host operations
    as a function of the features. -/
theorem ref_value (x0 : (⟨S100000x128, .f32⟩ : BufTy).Contents (Elt Ideal)) (x1 : (⟨S2x1600000, .i32⟩ : BufTy).Contents (Elt Ideal)) (x2 : (⟨S4x128x128, .f32⟩ : BufTy).Contents (Elt Ideal))
    (x3 : (⟨S4x128, .f32⟩ : BufTy).Contents (Elt Ideal)) (x4 : (⟨S4x128x128, .f32⟩ : BufTy).Contents (Elt Ideal)) (x5 : (⟨S4x128, .f32⟩ : BufTy).Contents (Elt Ideal)) :
    val_main_v131 (F := Ideal) x0 x1 x2 x3 x4 x5
      = Cert.GinSpec.net (fun x => val_main_v13 (F := Ideal) x x1) (w1R x2) (fun l k => b1R x3 l (ix1 k)) (w2R x4)
          (fun l k => b2R x5 l (ix1 k)) x0 := by
  unfold Cert.GinSpec.net Cert.GinSpec.step
  rw [layer3_ops, layerOps_eq, agg3_eq, layer2_ops, layerOps_eq, agg2_eq, layer1_ops, layerOps_eq, agg1_eq, layer0_ops,
    layerOps_eq]
  rfl

end Cert.ReferenceIdeal.RefNet

end
-- ==== Proof.lean ====
/-
  A four-layer GIN network: the kernel program against its jnp reference, at the extended reals.

  Both programs apply four times, to the node features x : [100000, 128],
      agg = the scatter-add, over the 1,600,000 edges, of the gathered source rows of x at the target rows,
      x'  = x + relu( relu( (agg + 1 * x) . W1[l] + b1[l] ) . W2[l] + b2[l] ).
  The kernel program computes agg by the same host operations as the reference (the same index shift, gather and
  scatter-add, word for word) and the rest of each layer in a region whose grid splits the rows into 20 blocks of 5000.
  A row of a layer's result depends only on that row of x and agg, so the blocks are restrictions of one whole-array
  function, the layer of Proof/GinSpec.lean; the kernel's matrix products into a zero accumulator and the reference's
  dot_generals are the same sums over the contracted column; the kernel's changes of float format are identities at the
  extended reals. No law used needs a finite input: the precondition is never opened.

  Proof/KernelRun.lean: the kernel program's run with the result buffer named. Proof/PayAt.lean: a region's stored
  value at an index. Proof/Region0 … Region3.lean: a region's output array is the layer of its entry arrays.
  Proof/KernelNet.lean: the kernel program's result is the network of the launch arrays. Proof/RefNet.lean: so is the
  reference's. Here: the two networks are the same function (the host terms of the two programs are the same terms), and
  the five claims.
-/
import proofs.«123225_j53609781789214_1_alg».proof.Defs
import proofs.«123225_j53609781789214_1_alg».proof.Proof.Gen.Kernel
import proofs.«123225_j53609781789214_1_alg».proof.Proof.Gen.Kernel.Skeleton
import proofs.«123225_j53609781789214_1_alg».proof.Proof.Gen.Kernel.Launch
import proofs.«123225_j53609781789214_1_alg».proof.Proof.Gen.Kernel.Points
import proofs.«123225_j53609781789214_1_alg».proof.Proof.Gen.Kernel.Frame
import proofs.«123225_j53609781789214_1_alg».proof.Proof.Gen.KernelIdeal
import proofs.«123225_j53609781789214_1_alg».proof.Proof.Gen.KernelIdeal.Skeleton
import proofs.«123225_j53609781789214_1_alg».proof.Proof.Gen.KernelIdeal.Launch
import proofs.«123225_j53609781789214_1_alg».proof.Proof.Gen.KernelIdeal.Points
import proofs.«123225_j53609781789214_1_alg».proof.Proof.Gen.KernelIdeal.Frame
import proofs.«123225_j53609781789214_1_alg».proof.Proof.Gen.ReferenceIdeal
import proofs.«123225_j53609781789214_1_alg».proof.Proof.Gen.ReferenceIdeal.Run
import proofs.«123225_j53609781789214_1_alg».proof.Proof.Gen.ReferenceIdeal.Read
import proofs.«123225_j53609781789214_1_alg».proof.Proof.Gen.Pre_finite_inputs
import proofs.«123225_j53609781789214_1_alg».proof.Proof.GinSpec
import proofs.«123225_j53609781789214_1_alg».proof.Proof.KernelRun
import proofs.«123225_j53609781789214_1_alg».proof.Proof.KernelNet
import proofs.«123225_j53609781789214_1_alg».proof.Proof.RefNet
import Idealize.ShloMosaic.Adequacy
import Idealize.ShloMosaic.Init

noncomputable section

namespace Cert.Proof

open Idealize.ShloMosaic Idealize.ShloMosaic.ValueIdx Idealize.SL.Sem

/-! ## The two programs' host terms are the same terms -/

section SameTerms

open Cert.KernelIdeal.KNet Cert.ReferenceIdeal.RefNet Cert.ReferenceIdeal.Read

/-- The aggregation: the kernel program's chain of host operations is the reference's layer-0 chain, operation by
    operation (neither side is opened below the gather and the scatter-add). -/
theorem agg_same (ei : (⟨Cert.ReferenceIdeal.S2x1600000, .i32⟩ : BufTy).Contents (Elt Ideal))
    (x : (⟨Cert.ReferenceIdeal.S100000x128, .f32⟩ : BufTy).Contents (Elt Ideal)) :
    val_main_v13 (F := Ideal) x ei = aggK ei x := by
  unfold aggK srcK dstK val_main_v13 val_main_v12 val_main_v11 val_main_v10 val_main_v9 val_main_v8 val_main_v7 val_main_v6
    val_main_v5 val_main_v4 val_main_v3 val_main_v2 val_main_v1 val_main_v0 val_main_cst val_main_c val_main_c_0
  rfl

/-- Layer l's first weight matrix is cut out of the stacked parameter by the same slice and reshape. -/
theorem w1_same (a : (⟨Cert.ReferenceIdeal.S4x128x128, .f32⟩ : BufTy).Contents (Elt Ideal)) : w1R a = wK a := by
  funext l; fin_cases l
  · show val_main_v18 (F := Ideal) a = _; unfold val_main_v18 val_main_v17; rfl
  · show val_main_v50 (F := Ideal) a = _; unfold val_main_v50 val_main_v49; rfl
  · show val_main_v82 (F := Ideal) a = _; unfold val_main_v82 val_main_v81; rfl
  · show val_main_v114 (F := Ideal) a = _; unfold val_main_v114 val_main_v113; rfl

/-- Likewise its second weight matrix. -/
theorem w2_same (a : (⟨Cert.ReferenceIdeal.S4x128x128, .f32⟩ : BufTy).Contents (Elt Ideal)) : w2R a = wK a := by
  funext l; fin_cases l
  · show val_main_v27 (F := Ideal) a = _; unfold val_main_v27 val_main_v26; rfl
  · show val_main_v59 (F := Ideal) a = _; unfold val_main_v59 val_main_v58; rfl
  · show val_main_v91 (F := Ideal) a = _; unfold val_main_v91 val_main_v90; rfl
  · show val_main_v123 (F := Ideal) a = _; unfold val_main_v123 val_main_v122; rfl

/-- Layer l's first bias row, as a vector, is the same slice and reshape. -/
theorem b1_same (a : (⟨Cert.ReferenceIdeal.S4x128, .f32⟩ : BufTy).Contents (Elt Ideal)) : b1R a = bK a := by
  funext l; fin_cases l
  · show val_main_v21 (F := Ideal) a = _; unfold val_main_v21 val_main_v20; rfl
  · show val_main_v53 (F := Ideal) a = _; unfold val_main_v53 val_main_v52; rfl
  · show val_main_v85 (F := Ideal) a = _; unfold val_main_v85 val_main_v84; rfl
  · show val_main_v117 (F := Ideal) a = _; unfold val_main_v117 val_main_v116; rfl

/-- Likewise its second bias row. -/
theorem b2_same (a : (⟨Cert.ReferenceIdeal.S4x128, .f32⟩ : BufTy).Contents (Elt Ideal)) : b2R a = bK a := by
  funext l; fin_cases l
  · show val_main_v30 (F := Ideal) a = _; unfold val_main_v30 val_main_v29; rfl
  · show val_main_v62 (F := Ideal) a = _; unfold val_main_v62 val_main_v61; rfl
  · show val_main_v94 (F := Ideal) a = _; unfold val_main_v94 val_main_v93; rfl
  · show val_main_v126 (F := Ideal) a = _; unfold val_main_v126 val_main_v125; rfl

/-- So the reference's network and the kernel program's network are one function of the six argument arrays. -/
theorem net_same (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S4x128x128, .f32⟩ : BufTy).Contents (Elt Ideal))
    (x3 : (⟨Cert.ReferenceIdeal.S4x128, .f32⟩ : BufTy).Contents (Elt Ideal))
    (x4 : (⟨Cert.ReferenceIdeal.S4x128x128, .f32⟩ : BufTy).Contents (Elt Ideal))
    (x5 : (⟨Cert.ReferenceIdeal.S4x128, .f32⟩ : BufTy).Contents (Elt Ideal)) :
    Cert.GinSpec.net (fun x => val_main_v13 (F := Ideal) x x1) (w1R x2) (fun l k => b1R x3 l (ix1 k)) (w2R x4)
        (fun l k => b2R x5 l (ix1 k)) x0
      = Cert.GinSpec.net (aggK x1) (wK x2) (fun l k => bK x3 l (ix1 k)) (wK x4) (fun l k => bK x5 l (ix1 k)) x0 := by
  rw [show (fun x => val_main_v13 (F := Ideal) x x1) = aggK x1 from funext fun x => agg_same x1 x,
    w1_same x2, w2_same x4, b1_same x3, b2_same x5]

end SameTerms

/-! ## The claims -/

/-- The kernel program as printed runs, and its argument arrays end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no region: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments, both programs end with the network of the arguments in the result
    buffer: the kernel program by its run and Proof/KernelNet.lean, the reference by its run and Proof/RefNet.lean, and
    the two networks are one function. -/
theorem algebraic : Cert.algebraic_KernelIdeal_ReferenceIdeal := by
  intro m ρ m' ρ' _ hagree
  refine ⟨fun c => Cert.GinSpec.net (Cert.KernelIdeal.KNet.aggK (m ((c.tc : Thread Cert.KernelIdeal.nD Cert.KernelIdeal.τ).loc Cert.KernelIdeal.main_arg1)))
      (Cert.KernelIdeal.KNet.wK (m ((c.tc : Thread Cert.KernelIdeal.nD Cert.KernelIdeal.τ).loc Cert.KernelIdeal.main_arg2)))
      (fun l k => Cert.KernelIdeal.KNet.bK (m ((c.tc : Thread Cert.KernelIdeal.nD Cert.KernelIdeal.τ).loc Cert.KernelIdeal.main_arg3)) l (ix1 k))
      (Cert.KernelIdeal.KNet.wK (m ((c.tc : Thread Cert.KernelIdeal.nD Cert.KernelIdeal.τ).loc Cert.KernelIdeal.main_arg4)))
      (fun l k => Cert.KernelIdeal.KNet.bK (m ((c.tc : Thread Cert.KernelIdeal.nD Cert.KernelIdeal.τ).loc Cert.KernelIdeal.main_arg5)) l (ix1 k))
      (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KNet.kernel_value m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v131_eq, Cert.ReferenceIdeal.RefNet.ref_value,
      (hagree c).1, (hagree c).2.1, (hagree c).2.2.1, (hagree c).2.2.2.1, (hagree c).2.2.2.2.1, (hagree c).2.2.2.2.2]
    exact net_same _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
